-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  main_v88

def fn_part4 {F : FTy → Type} [FloatOps F] (main_arg15 : FVec F S128 .f32) (main_arg16 : FVec F S128x64 .f32) (main_arg17 : FVec F S64 .f32) (main_arg18 : FVec F S128x64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 90
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S100000, .f32⟩
  | .hbm, ⟨27, _⟩ => ⟨S600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S100000x128, .f32⟩
  | .hbm, ⟨47, _⟩ => ⟨S600000x1, .i32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .f32⟩
  | .hbm, ⟨65, _⟩ => ⟨S100000x128, .f32⟩
  | .hbm, ⟨66, _⟩ => ⟨S600000x1, .i32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x64, .f32⟩
  | .hbm, ⟨84, _⟩ => ⟨S_, .f32⟩
  | .hbm, ⟨85, _⟩ => ⟨S100000x64, .f32⟩
  | .hbm, ⟨86, _⟩ => ⟨S600000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x64, .f32⟩
  | .local _ .vmem, ⟨29, _⟩ => ⟨S5000x128, .f32⟩
  | .local _ .vmem, ⟨30, _⟩ => ⟨S5000x128, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem11_1 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem5_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x64.size a ≤ S128x64.size a
  hwx1_10 : ∀ i : grid1.Coords, EltTy.bits .f32 = 32 ∨ (Rect.block (s := S128x64) S128x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S100000x128.size a
  hwx1_11 : ∀ i : grid1.Coords, EltTy.bits .f32 = 32 ∨ (Rect.block (s := S100000x128) S5000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S128x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v44_0) S5000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v44_1) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S_, .f32⟩
  | 37 => ⟨S600000, .f32⟩
  | 38 => ⟨S_, .f32⟩
  | 39 => ⟨S100000, .f32⟩
  | 40 => ⟨S600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S_, .f32⟩
  | 85 => ⟨S600000, .f32⟩
  | 86 => ⟨S_, .f32⟩
  | 87 => ⟨S100000, .f32⟩
  | 88 => ⟨S600000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S100000x128, .f32⟩

abbrev hbmTy0_1 (i : Nat) : BufTy := match i % 128 with
  | 0 => ⟨S_, .f32⟩
  | 1 => ⟨S100000x128, .f32⟩
  | 2 => ⟨S600000x1, .i32⟩
  | 3 => ⟨S100000x128, .f32⟩
  | 4 => ⟨S_, .f32⟩
  | 5 => ⟨S600000, .f32⟩
  | 6 => ⟨S_, .f32⟩
  | 7 => ⟨S100000, .f32⟩
  | 8 => ⟨S600000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_c_12 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program runs, and its result array ends at the last region's write-backs.

  The program is three gridded regions among three stretches of host operations. Every weakly fair execution
  terminates without a fault; at the end every unscoped buffer holds the contents the fold through the segments
  assigns it (`W6`): the result buffer what the third region's write-backs leave, each argument its launch contents.
-/
import proofs.«136812_j29686813950021_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    contents the fold through the six segments gives it, and every argument array as launched. -/
theorem run : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.Sage.KRun

end
-- ==== Proof.KBlk0.lean ====
/-
  Region 0 of the kernel program: which entries of its arrays each block is.

  The region's grid has 20 points; a row-blocked window's block at point `t` is rows `5000 t … 5000 t + 4999` of its
  array (all columns), a parameter window's block is the whole array at every point; the output blocks tile the
  output array.
-/
import proofs.«136812_j29686813950021_2_alg».proof.Proof.Gen.KernelIdeal.Frame
import Idealize.ShloMosaic.Lib.Pipeline.Value
import Idealize.ShloMosaic.Lib.ValueIdx

set_option maxRecDepth 16384

noncomputable section

namespace Cert.Sage.KBlk0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0: which rows of its arrays each block is -/

/-- The array row that row `r` of a block at grid point `t` is: the blocks are 5000 consecutive rows each, in order. -/
def row0 (t : Fin cfg0.N) (r : Fin 5000) : Fin 100000 :=
  ⟨t.val * 5000 + r.val, by have := t.isLt; have hN : cfg0.N = 20 := N_0; omega⟩

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)

/-- Input window 0's block at point `t` is rows `5000 t … 5000 t + 4999` of its array. -/
theorem blk0_0 (c : Dev nD) (t : Fin cfg0.N) (r : Fin 5000) (k : Fin 128) :
    (iblk0 V c 0 t : S5000x128.Idx → EReal) (ix2 r k) = (V c main_v22 : S100000x128.Idx → EReal) (ix2 (row0 t r) k) := by
  obtain ⟨e0, e1⟩ := idx0_0 t
  unfold iblk0
  rw [View.read_apply]
  show (V c main_v22 : S100000x128.Idx → EReal) _ = _
  refine congrArg _ ?_
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- Input window 1's block at point `t` is rows `5000 t … 5000 t + 4999` of its array. -/
theorem blk0_1 (c : Dev nD) (t : Fin cfg0.N) (r : Fin 5000) (k : Fin 128) :
    (iblk0 V c 1 t : S5000x128.Idx → EReal) (ix2 r k) = (V c main_arg0 : S100000x128.Idx → EReal) (ix2 (row0 t r) k) := by
  obtain ⟨e0, e1⟩ := idx0_1 t
  unfold iblk0
  rw [View.read_apply]
  show (V c main_arg0 : S100000x128.Idx → EReal) _ = _
  refine congrArg _ ?_
  funext a; apply Fin.ext
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

/-- Input window 2's block at point `t` is rows `5000 t … 5000 t + 4999` of its array. -/
theorem blk0_2 (c : Dev nD) (t : Fin cfg0.N) (r : Fin 5000) (k : Fin 1) :
    (iblk0 V c 2 t : S5000x1.Idx → EReal) (ix2 r k) = (V c main_v12 : S100000x1.Idx → EReal) (ix2 (row0 t r) k) := by
  obtain ⟨e0, e1⟩ := idx0_2 t
  unfold iblk0
  rw [View.read_apply]
  show (V c main_v12 : S100000x1.Idx → EReal) _ = _
  refine congrArg _ ?_
  funext a; apply Fin.ext
  match a with
  | ⟨0, _⟩ => show win0_2.index t (0 : Fin 2) * 5000 + 1 * r.val = t.val * 5000 + r.val; rw [e0]; omega
  | ⟨1, _⟩ => show win0_2.index t (1 : Fin 2) * 1 + 1 * k.val = k.val; rw [e1]; omega

/-- Input window 3 is its whole array at every point. -/
theorem blk0_3 (c : Dev nD) (t : Fin cfg0.N) (a : Fin 128) (b : Fin 128) :
    (iblk0 V c 3 t : S128x128.Idx → EReal) (ix2 a b) = (V c main_arg2 : S128x128.Idx → EReal) (ix2 a b) := by
  obtain ⟨e0, e1⟩ := idx0_3 t
  unfold iblk0
  rw [View.read_apply]
  show (V c main_arg2 : S128x128.Idx → EReal) _ = _
  refine congrArg _ ?_
  funext d; apply Fin.ext
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- Input window 4 is its whole array at every point. -/
theorem blk0_4 (c : Dev nD) (t : Fin cfg0.N) (a : Fin 1) (b : Fin 128) :
    (iblk0 V c 4 t : S1x128.Idx → EReal) (ix2 a b) = (V c main_v23 : S1x128.Idx → EReal) (ix2 a b) := by
  obtain ⟨e0, e1⟩ := idx0_4 t
  unfold iblk0
  rw [View.read_apply]
  show (V c main_v23 : S1x128.Idx → EReal) _ = _
  refine congrArg _ ?_
  funext d; apply Fin.ext
  match d with
  | ⟨0, _⟩ => show win0_4.index t (0 : Fin 2) * 1 + 1 * a.val = a.val; rw [e0]; omega
  | ⟨1, _⟩ => show win0_4.index t (1 : Fin 2) * 128 + 1 * b.val = b.val; rw [e1]; omega

/-- Input window 5 is its whole array at every point. -/
theorem blk0_5 (c : Dev nD) (t : Fin cfg0.N) (a : Fin 128) (b : Fin 128) :
    (iblk0 V c 5 t : S128x128.Idx → EReal) (ix2 a b) = (V c main_arg4 : S128x128.Idx → EReal) (ix2 a b) := by
  obtain ⟨e0, e1⟩ := idx0_5 t
  unfold iblk0
  rw [View.read_apply]
  show (V c main_arg4 : S128x128.Idx → EReal) _ = _
  refine congrArg _ ?_
  funext d; apply Fin.ext
  match d with
  | ⟨0, _⟩ => show win0_5.index t (0 : Fin 2) * 128 + 1 * a.val = a.val; rw [e0]; omega
  | ⟨1, _⟩ => show win0_5.index t (1 : Fin 2) * 128 + 1 * b.val = b.val; rw [e1]; omega

/-- Input window 6 is its whole array at every point. -/
theorem blk0_6 (c : Dev nD) (t : Fin cfg0.N) (a : Fin 1) (b : Fin 128) :
    (iblk0 V c 6 t : S1x128.Idx → EReal) (ix2 a b) = (V c main_v24 : S1x128.Idx → EReal) (ix2 a b) := by
  obtain ⟨e0, e1⟩ := idx0_6 t
  unfold iblk0
  rw [View.read_apply]
  show (V c main_v24 : S1x128.Idx → EReal) _ = _
  refine congrArg _ ?_
  funext d; apply Fin.ext
  match d with
  | ⟨0, _⟩ => show win0_6.index t (0 : Fin 2) * 1 + 1 * a.val = a.val; rw [e0]; omega
  | ⟨1, _⟩ => show win0_6.index t (1 : Fin 2) * 128 + 1 * b.val = b.val; rw [e1]; omega

/-- Input window 7 is its whole array at every point. -/
theorem blk0_7 (c : Dev nD) (t : Fin cfg0.N) (a : Fin 1) (b : Fin 128) :
    (iblk0 V c 7 t : S1x128.Idx → EReal) (ix2 a b) = (V c main_v25 : S1x128.Idx → EReal) (ix2 a b) := by
  obtain ⟨e0, e1⟩ := idx0_7 t
  unfold iblk0
  rw [View.read_apply]
  show (V c main_v25 : S1x128.Idx → EReal) _ = _
  refine congrArg _ ?_
  funext d; apply Fin.ext
  match d with
  | ⟨0, _⟩ => show win0_7.index t (0 : Fin 2) * 1 + 1 * a.val = a.val; rw [e0]; omega
  | ⟨1, _⟩ => show win0_7.index t (1 : Fin 2) * 128 + 1 * b.val = b.val; rw [e1]; omega

/-- Input window 8 is its whole array at every point. -/
theorem blk0_8 (c : Dev nD) (t : Fin cfg0.N) (a : Fin 1) (b : Fin 128) :
    (iblk0 V c 8 t : S1x128.Idx → EReal) (ix2 a b) = (V c main_v26 : S1x128.Idx → EReal) (ix2 a b) := by
  obtain ⟨e0, e1⟩ := idx0_8 t
  unfold iblk0
  rw [View.read_apply]
  show (V c main_v26 : S1x128.Idx → EReal) _ = _
  refine congrArg _ ?_
  funext d; apply Fin.ext
  match d with
  | ⟨0, _⟩ => show win0_8.index t (0 : Fin 2) * 1 + 1 * a.val = a.val; rw [e0]; omega
  | ⟨1, _⟩ => show win0_8.index t (1 : Fin 2) * 128 + 1 * b.val = b.val; rw [e1]; omega

/-- Input window 9 is its whole array at every point. -/
theorem blk0_9 (c : Dev nD) (t : Fin cfg0.N) (a : Fin 1) (b : Fin 128) :
    (iblk0 V c 9 t : S1x128.Idx → EReal) (ix2 a b) = (V c main_v27 : S1x128.Idx → EReal) (ix2 a b) := by
  obtain ⟨e0, e1⟩ := idx0_9 t
  unfold iblk0
  rw [View.read_apply]
  show (V c main_v27 : S1x128.Idx → EReal) _ = _
  refine congrArg _ ?_
  funext d; apply Fin.ext
  match d with
  | ⟨0, _⟩ => show win0_9.index t (0 : Fin 2) * 1 + 1 * a.val = a.val; rw [e0]; omega
  | ⟨1, _⟩ => show win0_9.index t (1 : Fin 2) * 128 + 1 * b.val = b.val; rw [e1]; omega

/-- Output window 10's block at point `t` lands on rows `5000 t … 5000 t + 4999` of its array. -/
theorem emb0_10 (t : Fin cfg0.N) (r : Fin 5000) (j : Fin 128) :
    ((cfg0.win 10).blk t).view.emb (ix2 r j : S5000x128.Idx) = (ix2 (row0 t r) j : S100000x128.Idx) := by
  obtain ⟨e0, e1⟩ := idx0_10 t
  funext a; apply Fin.ext
  match a with
  | ⟨0, _⟩ => show win0_10.index t (0 : Fin 2) * 5000 + 1 * r.val = t.val * 5000 + r.val; rw [e0]; omega
  | ⟨1, _⟩ => show win0_10.index t (1 : Fin 2) * 128 + 1 * j.val = j.val; rw [e1]; omega

/-- Every entry of output window 10's array is in the block of the point its row falls in. -/
theorem cover0_10 (c : Dev nD) (i : ((cfg0.win 10).arr.view.loc (c.tc : Thread nD τ)).2.ty.Idx) :
    ∃ t : Fin cfg0.N, (cfg0.win 10).flush t = true ∧ i ∈ ((cfg0.win 10).blk t).view.set := by
  have hN : cfg0.N = 20 := N_0
  have h0 : (i 0).val < 100000 := (i 0).isLt
  have h1 : (i 1).val < 128 := (i 1).isLt
  have ht : (i 0).val / 5000 < cfg0.N := by omega
  refine ⟨⟨(i 0).val / 5000, ht⟩, flush0_10 _, ?_⟩
  obtain ⟨e0, e1⟩ := idx0_10 ⟨(i 0).val / 5000, ht⟩
  show i ∈ ((View.whole main_v28).slice (win0_10.rect ⟨(i 0).val / 5000, ht⟩)).set
  rw [View.set_slice_whole, Rect.mem_set_unit]
  intro a
  match a with
  | ⟨0, _⟩ =>
    show win0_10.index ⟨(i 0).val / 5000, ht⟩ (0 : Fin 2) * 5000 ≤ (i 0).val ∧ (i 0).val < win0_10.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_10.index ⟨(i 0).val / 5000, ht⟩ (1 : Fin 2) * 128 ≤ (i 1).val ∧ (i 1).val < win0_10.index ⟨(i 0).val / 5000, ht⟩ (1 : Fin 2) * 128 + 128
    rw [e1]; omega

end Cert.Sage.KBlk0

end
-- ==== Proof.Spec.lean ====
/-
  The mathematics both programs compute, one output entry at a time, over the extended reals.

  A layer takes, for a node `n`, the row `ar` of summed neighbour features, the node's own row `xr`, the two weight
  columns `wl`, `wr` for output feature `j`, and the scalars of that feature (bias `bl`, scale `g`, shift `be`,
  running mean `rm`, running variance `rv`). It forms the mean of the neighbours, two dot products, the bias, the
  normalisation `(h - rm) * (g * rsqrt (rv + ε)) + be` and the positive part.

  The two programs differ in how the mean is taken: one divides the neighbour sum by the degree `d`
  (`layerR`, `finalR`), the other multiplies it by a reciprocal `s` computed once (`layerK`, `finalK`); and, in
  the last layer, in whether the weight column is applied before or after summing over the neighbours.
-/
import Idealize.ShloMosaic.PureOps.Ideal
import Idealize.ShloMosaic.PureOps.Ideal.Laws
import Idealize.ShloMosaic.Lib.ValueIdx

noncomputable section

namespace Cert.Sage

open Idealize.ShloMosaic

/-- The normalisation's ε: the real number its single-precision pattern denotes. -/
def eps : EReal := Ideal.ofBits .f32 0x3727C5AC#32

/-- A dot product over the 128 input features. -/
def dot128 (a w : Fin 128 → EReal) : EReal := ∑ k : Fin 128, a k * w k

/-- One entry of a hidden layer, the neighbour sum scaled by a reciprocal `s` before the product, the bias added
    after both products. -/
def layerK (ar xr wl wr : Fin 128 → EReal) (s bl g be rm rv : EReal) : EReal :=
  max ((((dot128 (fun k => ar k * s) wl + dot128 xr wr) + bl) - rm) * (g * Ideal.rsqrt (rv + eps)) + be) 0

/-- One entry of a hidden layer, the neighbour sum divided by the degree `d`, the bias added between the two
    products. -/
def layerR (ar xr wl wr : Fin 128 → EReal) (d bl g be rm rv : EReal) : EReal :=
  max ((((dot128 (fun k => Ideal.div (ar k) d) wl + bl) + dot128 xr wr) - rm) * (g * Ideal.rsqrt (rv + eps)) + be) 0

/-- One entry of the last layer where the neighbour weights were applied BEFORE the sum over neighbours: `a3` is
    that sum, already a number for this output feature. -/
def finalK (hr wr : Fin 128 → EReal) (a3 s bl : EReal) : EReal := (dot128 hr wr + a3 * s) + bl

/-- One entry of the last layer where the mean of the neighbours' rows meets the weight column afterwards. -/
def finalR (ar hr wl wr : Fin 128 → EReal) (d bl : EReal) : EReal :=
  (dot128 (fun k => Ideal.div (ar k) d) wl + bl) + dot128 hr wr

/-- The sum of `f` over the edges whose target is node `n` (`dst e` is edge `e`'s target, a signed integer: an
    edge whose target is no node contributes to no sum). -/
def segSum (dst : Fin 600000 → ℤ) (n : Fin 100000) (f : Fin 600000 → EReal) : EReal :=
  ∑ e ∈ Finset.univ.filter (fun e => dst e = (n.val : ℤ)), f e

theorem layerK_nonneg (ar xr wl wr : Fin 128 → EReal) (s bl g be rm rv : EReal) :
    0 ≤ layerK ar xr wl wr s bl g be rm rv := le_max_right _ _

theorem layerR_nonneg (ar xr wl wr : Fin 128 → EReal) (d bl g be rm rv : EReal) :
    0 ≤ layerR ar xr wl wr d bl g be rm rv := le_max_right _ _

end Cert.Sage

end
-- ==== Proof.KG.lean ====
/-
  The kernel program's three regions as whole-array functions.

  Each region works row by row: output row `n` depends on row `n` of the row-blocked inputs and on the parameter
  arrays. `hidden` is a hidden layer (neighbour sum scaled by the reciprocal degree column, two products, bias,
  normalisation, positive part); `pre3` applies the last layer's neighbour weights to a hidden array ahead of the
  sum over neighbours; `last` is the last layer over such a pre-multiplied neighbour sum.
-/
import proofs.«136812_j29686813950021_2_alg».proof.Proof.Spec
import proofs.«136812_j29686813950021_2_alg».proof.KernelIdeal

noncomputable section

namespace Cert.Sage.KG

open Cert.KernelIdeal Idealize.ShloMosaic Idealize.ShloMosaic.ValueIdx

/-- A hidden layer, entry `(n, j)`: `Spec.layerK` of row `n` of the neighbour sum `A` and of the features `X`,
    columns `j` of the two weight matrices, the reciprocal degree `DV (n, 0)` and feature `j`'s parameters. -/
def hidden (A X : S100000x128.Idx → EReal) (DV : S100000x1.Idx → EReal) (WL : S128x128.Idx → EReal)
    (BL : S1x128.Idx → EReal) (WR : S128x128.Idx → EReal) (G BE RM RV : S1x128.Idx → EReal) : S100000x128.Idx → EReal :=
  fun i => layerK (fun k => A (ix2 (n0 := 100000) (n1 := 128) (i 0) k)) (fun k => X (ix2 (n0 := 100000) (n1 := 128) (i 0) k))
    (fun k => WL (ix2 (n0 := 128) (n1 := 128) k (i 1))) (fun k => WR (ix2 (n0 := 128) (n1 := 128) k (i 1)))
    (DV (ix2 (n0 := 100000) (n1 := 1) (i 0) 0)) (BL (ix2 (n0 := 1) (n1 := 128) 0 (i 1))) (G (ix2 (n0 := 1) (n1 := 128) 0 (i 1)))
    (BE (ix2 (n0 := 1) (n1 := 128) 0 (i 1))) (RM (ix2 (n0 := 1) (n1 := 128) 0 (i 1))) (RV (ix2 (n0 := 1) (n1 := 128) 0 (i 1)))

theorem hidden_apply (A X : S100000x128.Idx → EReal) (DV : S100000x1.Idx → EReal) (WL : S128x128.Idx → EReal)
    (BL : S1x128.Idx → EReal) (WR : S128x128.Idx → EReal) (G BE RM RV : S1x128.Idx → EReal) (n : Fin 100000) (j : Fin 128) :
    hidden A X DV WL BL WR G BE RM RV (ix2 n j)
      = layerK (fun k => A (ix2 n k)) (fun k => X (ix2 n k)) (fun k => WL (ix2 k j)) (fun k => WR (ix2 k j))
          (DV (ix2 n 0)) (BL (ix2 0 j)) (G (ix2 0 j)) (BE (ix2 0 j)) (RM (ix2 0 j)) (RV (ix2 0 j)) := rfl

/-- The last layer's neighbour weights applied to a hidden array, entry `(n, j)`: row `n` against column `j`. -/
def pre3 (H : S100000x128.Idx → EReal) (W3 : S128x64.Idx → EReal) : S100000x64.Idx → EReal :=
  fun i => dot128 (fun k => H (ix2 (n0 := 100000) (n1 := 128) (i 0) k)) (fun k => W3 (ix2 (n0 := 128) (n1 := 64) k (i 1)))

theorem pre3_apply (H : S100000x128.Idx → EReal) (W3 : S128x64.Idx → EReal) (n : Fin 100000) (j : Fin 64) :
    pre3 H W3 (ix2 n j) = dot128 (fun k => H (ix2 n k)) (fun k => W3 (ix2 k j)) := rfl

/-- The last layer, entry `(n, j)`: `Spec.finalK` of row `n` of the hidden array, column `j` of the root weights,
    the pre-multiplied neighbour sum's entry, the reciprocal degree and the bias. -/
def last (A3 : S100000x64.Idx → EReal) (H : S100000x128.Idx → EReal) (DV : S100000x1.Idx → EReal)
    (WR : S128x64.Idx → EReal) (BL : S1x64.Idx → EReal) : S100000x64.Idx → EReal :=
  fun i => finalK (fun k => H (ix2 (n0 := 100000) (n1 := 128) (i 0) k)) (fun k => WR (ix2 (n0 := 128) (n1 := 64) k (i 1)))
    (A3 (ix2 (n0 := 100000) (n1 := 64) (i 0) (i 1))) (DV (ix2 (n0 := 100000) (n1 := 1) (i 0) 0)) (BL (ix2 (n0 := 1) (n1 := 64) 0 (i 1)))

theorem last_apply (A3 : S100000x64.Idx → EReal) (H : S100000x128.Idx → EReal) (DV : S100000x1.Idx → EReal)
    (WR : S128x64.Idx → EReal) (BL : S1x64.Idx → EReal) (n : Fin 100000) (j : Fin 64) :
    last A3 H DV WR BL (ix2 n j)
      = finalK (fun k => H (ix2 n k)) (fun k => WR (ix2 k j)) (A3 (ix2 n j)) (DV (ix2 n 0)) (BL (ix2 0 j)) := rfl

end Cert.Sage.KG

end
-- ==== Proof.Pay.lean ====
/-
  The three kernel bodies' arithmetic, read at one output entry.

  Each body is a composition of whole-array operations. At the extended reals the pointwise ones (sum, difference,
  product, maximum, reciprocal square root, a change of format) act entry by entry; a row `[1, c]` or a column
  `[r, 1]` spread over `[r, c]` reads the row's or the column's one entry; a product of arrays into the zero
  accumulator is the plain sum over the 128 shared coordinates. Composed, an entry of the first two bodies is
  `layerK` of that entry's row, columns and scalars, an entry of the second body's other result is the dot product
  of the hidden row with a weight column, and an entry of the last body is `finalK`.
-/
import proofs.«136812_j29686813950021_2_alg».proof.Proof.Gen.KernelIdeal.Skeleton
import proofs.«136812_j29686813950021_2_alg».proof.Proof.Spec
import Idealize.ShloMosaic.Lib.ValueLayout
import Idealize.ShloMosaic.Lib.Pipeline.Value
import Idealize.ShloMosaic.PureOps.Ideal.Laws

noncomputable section

namespace Cert.Sage.Pay

open Cert.KernelIdeal Cert.KernelIdeal.Gen Idealize.ShloMosaic Idealize.ShloMosaic.ValueIdx

/-- A reciprocal square root at an index is that of the element. -/
theorem rsqrt_apply {s : Shape} {φ : FTy} (a : FVec Ideal s φ) (i : s.Idx) : rsqrt a i = Ideal.rsqrt (a i) := rfl

/-- A `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[5000, 128]` array with a `[128, 128]` array, read at an entry -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero accumulator the product is the plain sum over the 128 shared coordinates. -/
theorem matmul_128x128_apply (l : FVec Ideal S5000x128 .bf16) (w : FVec Ideal S128x128 .bf16) (r : Fin 5000) (j : Fin 128) :
    matmul dot_S5000x128_S128x128_S5000x128_1_0_0_1_n_n none l w (constant (F := Ideal) S5000x128 .f32 0x00000000#32) (ix2 r j)
      = ∑ k : Fin 128, l (ix2 r k) * w (ix2 k j) := by
  refine (Ideal.matmul_constant_zero_apply dot_S5000x128_S128x128_S5000x128_1_0_0_1_n_n none l w (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]

/-! ## The product of a `[5000, 128]` array with a `[128, 64]` array, read at an entry -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Into the zero accumulator the product is the plain sum over the 128 shared coordinates. -/
theorem matmul_128x64_apply (l : FVec Ideal S5000x128 .bf16) (w : FVec Ideal S128x64 .bf16) (r : Fin 5000) (j : Fin 64) :
    matmul dot_S5000x128_S128x64_S5000x64_1_0_0_1_n_n none l w (constant (F := Ideal) S5000x64 .f32 0x00000000#32) (ix2 r j)
      = ∑ k : Fin 128, l (ix2 r k) * w (ix2 k j) := by
  refine (Ideal.matmul_constant_zero_apply dot_S5000x128_S128x64_S5000x64_1_0_0_1_n_n none l w (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j)
      ((contrEquiv1 dot_S5000x128_S128x64_S5000x64_1_0_0_1_n_n 128 rfl rfl).symm k) = ix2 r k :=
    funext fun a => Fin.ext (by
      match a with
      | ⟨0, _⟩ => exact lhs64_0 _ _
      | ⟨1, _⟩ => exact (lhs64_1 _ _).trans hk)
  have er : dot_S5000x128_S128x64_S5000x64_1_0_0_1_n_n.rhsIdx (ix2 r j)
      ((contrEquiv1 dot_S5000x128_S128x64_S5000x64_1_0_0_1_n_n 128 rfl rfl).symm k) = ix2 k j :=
    funext fun a => Fin.ext (by
      match a with
      | ⟨0, _⟩ => exact (rhs64_0 _ _).trans hk
      | ⟨1, _⟩ => exact rhs64_1 _ _)
  rw [el, er]

/-! ## The bodies at an entry -/

/-- The first layer's body at entry `(r, j)`. -/
theorem pay0 (x0 x1 : Vec Ideal S5000x128 .f32) (x2 : Vec Ideal S5000x1 .f32) (x3 : Vec Ideal S128x128 .f32)
    (x4 : Vec Ideal S1x128 .f32) (x5 : Vec Ideal S128x128 .f32) (x6 x7 x8 x9 : Vec Ideal S1x128 .f32)
    (r : Fin 5000) (j : Fin 128) :
    k0_pay1 (k0_pay2 x0 x2 x1 x3 x5 x4 x6 x9 x8) (k0_pay3 x7) (ix2 r j)
      = layerK (fun k => x0 (ix2 r k)) (fun k => x1 (ix2 r k)) (fun k => x3 (ix2 k j)) (fun k => x5 (ix2 k j))
          (x2 (ix2 r 0)) (x4 (ix2 0 j)) (x6 (ix2 0 j)) (x7 (ix2 0 j)) (x8 (ix2 0 j)) (x9 (ix2 0 j)) := by
  unfold k0_pay1 k0_pay2 k0_pay3
  simp only [maximumf_apply, addf_apply, subf_apply, mulf_apply, rsqrt_apply, broadcast_apply, shapeCast_self,
    broadcastTo_1b_ab_apply, broadcastTo_a1_ab_apply, matmul_128x128_apply, truncf_apply, Ideal.ofBits_def,
    Ideal.ofBits_zero_f32]
  rfl

/-- The second layer's body at entry `(r, j)` of its hidden result. -/
theorem pay1h (x0 x1 : Vec Ideal S5000x128 .f32) (x2 : Vec Ideal S5000x1 .f32) (x3 : Vec Ideal S128x128 .f32)
    (x4 : Vec Ideal S1x128 .f32) (x5 : Vec Ideal S128x128 .f32) (x6 x7 x8 x9 : Vec Ideal S1x128 .f32)
    (r : Fin 5000) (j : Fin 128) :
    k1_pay1 (k1_pay3 x0 x2 x1 x3 x5 x4 x6 x9 x8) x7 (ix2 r j)
      = layerK (fun k => x0 (ix2 r k)) (fun k => x1 (ix2 r k)) (fun k => x3 (ix2 k j)) (fun k => x5 (ix2 k j))
          (x2 (ix2 r 0)) (x4 (ix2 0 j)) (x6 (ix2 0 j)) (x7 (ix2 0 j)) (x8 (ix2 0 j)) (x9 (ix2 0 j)) := by
  unfold k1_pay1 k1_pay3
  simp only [maximumf_apply, addf_apply, subf_apply, mulf_apply, rsqrt_apply, broadcast_apply, shapeCast_self,
    broadcastTo_1b_ab_apply, broadcastTo_a1_ab_apply, matmul_128x128_apply, truncf_apply, Ideal.ofBits_def,
    Ideal.ofBits_zero_f32]
  rfl

/-- The second layer's body at entry `(r, j)` of its other result: the hidden row against a weight column. -/
theorem pay1y (x0 x1 : Vec Ideal S5000x128 .f32) (x2 : Vec Ideal S5000x1 .f32) (x3 : Vec Ideal S128x128 .f32)
    (x4 : Vec Ideal S1x128 .f32) (x5 : Vec Ideal S128x128 .f32) (x6 x7 x8 x9 : Vec Ideal S1x128 .f32)
    (x10 : Vec Ideal S128x64 .f32) (r : Fin 5000) (j : Fin 64) :
    k1_pay2 (k1_pay3 x0 x2 x1 x3 x5 x4 x6 x9 x8) x7 x10 (ix2 r j)
      = dot128 (fun k => layerK (fun k' => x0 (ix2 r k')) (fun k' => x1 (ix2 r k')) (fun k' => x3 (ix2 k' k))
          (fun k' => x5 (ix2 k' k)) (x2 (ix2 r 0)) (x4 (ix2 0 k)) (x6 (ix2 0 k)) (x7 (ix2 0 k)) (x8 (ix2 0 k))
          (x9 (ix2 0 k))) (fun k => x10 (ix2 k j)) := by
  unfold k1_pay2
  simp only [matmul_128x64_apply, truncf_apply, pay1h]
  rfl

/-- The last layer's body at entry `(r, j)`. -/
theorem pay2 (x0 : Vec Ideal S5000x64 .f32) (x1 : Vec Ideal S5000x128 .f32) (x2 : Vec Ideal S5000x1 .f32)
    (x3 : Vec Ideal S128x64 .f32) (x4 : Vec Ideal S1x64 .f32) (r : Fin 5000) (j : Fin 64) :
    k2_pay1 x0 x2 x1 x3 x4 (ix2 r j)
      = finalK (fun k => x1 (ix2 r k)) (fun k => x3 (ix2 k j)) (x0 (ix2 r j)) (x2 (ix2 r 0)) (x4 (ix2 0 j)) := by
  unfold k2_pay1
  simp only [addf_apply, mulf_apply, shapeCast_self, broadcastTo_1b_ab_apply, broadcastTo_a1_ab_apply,
    matmul_128x64_apply, truncf_apply]
  rfl

end Cert.Sage.Pay

end
-- ==== Proof.KReg0.lean ====
/-
  The first region's output array.

  At a grid point the body's one store writes, at row `r` and column `j` of the block, the hidden layer's entry
  computed from row `r` of the point's three row blocks and the seven parameter arrays; the blocks tile the array,
  so the whole array ends at `KG.hidden` of the region's input arrays as the region finds them.
-/
import proofs.«136812_j29686813950021_2_alg».proof.Proof.Gen.KernelIdeal.Frame
import proofs.«136812_j29686813950021_2_alg».proof.Proof.KBlk0
import proofs.«136812_j29686813950021_2_alg».proof.Proof.KG
import proofs.«136812_j29686813950021_2_alg».proof.Proof.Pay
import Idealize.ShloMosaic.Lib.Pipeline.Value

set_option maxRecDepth 16384

noncomputable section

namespace Cert.Sage.KReg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: the hidden layer of its ten input arrays. -/
abbrev result (c : Dev nD) : S100000x128.Idx → EReal :=
  KG.hidden (V c main_v22) (V c main_arg0) (V c main_v12) (V c main_arg2) (V c main_v23) (V c main_arg4)
    (V c main_v24) (V c main_v25) (V c main_v26) (V c main_v27)

/-- What point `t` writes back is block `t` of `result`. -/
theorem flushed (c : Dev nD) (t : Fin cfg0.N) :
    (dat0 V c).flushed 10 t = ((cfg0.win 10).blk t).view.read (Elt Ideal) (result V c) := by
  show (cfg0.win 10).cut (grid0.coords t) ((dat0 V c).after 10 t) = _
  rw [after0_10]
  unfold out0_10
  rw [View.canon_unit_zero hz]
  simp only [View.ld_unit_zero (S := S5000x128) hz, View.ld_unit_zero (S := S5000x1) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  show k0_pay1 (k0_pay2 (iblk0 V c 0 t) (iblk0 V c 2 t) (iblk0 V c 1 t) (iblk0 V c 3 t) (iblk0 V c 5 t) (iblk0 V c 4 t)
        (iblk0 V c 6 t) (iblk0 V c 9 t) (iblk0 V c 8 t)) (k0_pay3 (iblk0 V c 7 t)) (ix2 r j)
      = result V c (((cfg0.win 10).blk t).view.emb (ix2 r j : S5000x128.Idx))
  rw [KBlk0.emb0_10]
  unfold result
  rw [KG.hidden_apply]
  refine (Pay.pay0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) r j).trans ?_
  simp only [KBlk0.blk0_0 V c t, KBlk0.blk0_1 V c t, KBlk0.blk0_2 V c t, KBlk0.blk0_3 V c t, KBlk0.blk0_4 V c t, KBlk0.blk0_5 V c t, KBlk0.blk0_6 V c t, KBlk0.blk0_7 V c t, KBlk0.blk0_8 V c t, KBlk0.blk0_9 V c t]

/-- The output array after the region's last point. -/
theorem final (c : Dev nD) : (dat0 V c).arrAt 10 cfg0.N = result V c :=
  (dat0 V c).arrAt_eq_of_cover 10 (result V c) (fun t _ => flushed V c t) (KBlk0.cover0_10 c)

end Cert.Sage.KReg0

end
-- ==== Proof.KBlk1.lean ====
/-
  Region 1 of the kernel program: which entries of its arrays each block is.

  The region's grid has 20 points; a row-blocked window's block at point `t` is rows `5000 t … 5000 t + 4999` of its
  array (all columns), a parameter window's block is the whole array at every point; the output blocks tile the
  output array.
-/
import proofs.«136812_j29686813950021_2_alg».proof.Proof.Gen.KernelIdeal.Frame
import Idealize.ShloMosaic.Lib.Pipeline.Value
import Idealize.ShloMosaic.Lib.ValueIdx

set_option maxRecDepth 16384

noncomputable section

namespace Cert.Sage.KBlk1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 1: which rows of its arrays each block is -/

/-- The array row that row `r` of a block at grid point `t` is: the blocks are 5000 consecutive rows each, in order. -/
def row1 (t : Fin cfg1.N) (r : Fin 5000) : Fin 100000 :=
  ⟨t.val * 5000 + r.val, by have := t.isLt; have hN : cfg1.N = 20 := N_1; omega⟩

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

/-- Input window 0's block at point `t` is rows `5000 t … 5000 t + 4999` of its array. -/
theorem blk1_0 (c : Dev nD) (t : Fin cfg1.N) (r : Fin 5000) (k : Fin 128) :
    (iblk1 V c 0 t : S5000x128.Idx → EReal) (ix2 r k) = (V c main_v38 : S100000x128.Idx → EReal) (ix2 (row1 t r) k) := by
  obtain ⟨e0, e1⟩ := idx1_0 t
  unfold iblk1
  rw [View.read_apply]
  show (V c main_v38 : S100000x128.Idx → EReal) _ = _
  refine congrArg _ ?_
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Input window 1's block at point `t` is rows `5000 t … 5000 t + 4999` of its array. -/
theorem blk1_1 (c : Dev nD) (t : Fin cfg1.N) (r : Fin 5000) (k : Fin 128) :
    (iblk1 V c 1 t : S5000x128.Idx → EReal) (ix2 r k) = (V c main_v28 : S100000x128.Idx → EReal) (ix2 (row1 t r) k) := by
  obtain ⟨e0, e1⟩ := idx1_1 t
  unfold iblk1
  rw [View.read_apply]
  show (V c main_v28 : S100000x128.Idx → EReal) _ = _
  refine congrArg _ ?_
  funext a; apply Fin.ext
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- Input window 2's block at point `t` is rows `5000 t … 5000 t + 4999` of its array. -/
theorem blk1_2 (c : Dev nD) (t : Fin cfg1.N) (r : Fin 5000) (k : Fin 1) :
    (iblk1 V c 2 t : S5000x1.Idx → EReal) (ix2 r k) = (V c main_v12 : S100000x1.Idx → EReal) (ix2 (row1 t r) k) := by
  obtain ⟨e0, e1⟩ := idx1_2 t
  unfold iblk1
  rw [View.read_apply]
  show (V c main_v12 : S100000x1.Idx → EReal) _ = _
  refine congrArg _ ?_
  funext a; apply Fin.ext
  match a with
  | ⟨0, _⟩ => show win1_2.index t (0 : Fin 2) * 5000 + 1 * r.val = t.val * 5000 + r.val; rw [e0]; omega
  | ⟨1, _⟩ => show win1_2.index t (1 : Fin 2) * 1 + 1 * k.val = k.val; rw [e1]; omega

/-- Input window 3 is its whole array at every point. -/
theorem blk1_3 (c : Dev nD) (t : Fin cfg1.N) (a : Fin 128) (b : Fin 128) :
    (iblk1 V c 3 t : S128x128.Idx → EReal) (ix2 a b) = (V c main_arg9 : S128x128.Idx → EReal) (ix2 a b) := by
  obtain ⟨e0, e1⟩ := idx1_3 t
  unfold iblk1
  rw [View.read_apply]
  show (V c main_arg9 : S128x128.Idx → EReal) _ = _
  refine congrArg _ ?_
  funext d; apply Fin.ext
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- Input window 4 is its whole array at every point. -/
theorem blk1_4 (c : Dev nD) (t : Fin cfg1.N) (a : Fin 1) (b : Fin 128) :
    (iblk1 V c 4 t : S1x128.Idx → EReal) (ix2 a b) = (V c main_v39 : S1x128.Idx → EReal) (ix2 a b) := by
  obtain ⟨e0, e1⟩ := idx1_4 t
  unfold iblk1
  rw [View.read_apply]
  show (V c main_v39 : S1x128.Idx → EReal) _ = _
  refine congrArg _ ?_
  funext d; apply Fin.ext
  match d with
  | ⟨0, _⟩ => show win1_4.index t (0 : Fin 2) * 1 + 1 * a.val = a.val; rw [e0]; omega
  | ⟨1, _⟩ => show win1_4.index t (1 : Fin 2) * 128 + 1 * b.val = b.val; rw [e1]; omega

/-- Input window 5 is its whole array at every point. -/
theorem blk1_5 (c : Dev nD) (t : Fin cfg1.N) (a : Fin 128) (b : Fin 128) :
    (iblk1 V c 5 t : S128x128.Idx → EReal) (ix2 a b) = (V c main_arg11 : S128x128.Idx → EReal) (ix2 a b) := by
  obtain ⟨e0, e1⟩ := idx1_5 t
  unfold iblk1
  rw [View.read_apply]
  show (V c main_arg11 : S128x128.Idx → EReal) _ = _
  refine congrArg _ ?_
  funext d; apply Fin.ext
  match d with
  | ⟨0, _⟩ => show win1_5.index t (0 : Fin 2) * 128 + 1 * a.val = a.val; rw [e0]; omega
  | ⟨1, _⟩ => show win1_5.index t (1 : Fin 2) * 128 + 1 * b.val = b.val; rw [e1]; omega

/-- Input window 6 is its whole array at every point. -/
theorem blk1_6 (c : Dev nD) (t : Fin cfg1.N) (a : Fin 1) (b : Fin 128) :
    (iblk1 V c 6 t : S1x128.Idx → EReal) (ix2 a b) = (V c main_v40 : S1x128.Idx → EReal) (ix2 a b) := by
  obtain ⟨e0, e1⟩ := idx1_6 t
  unfold iblk1
  rw [View.read_apply]
  show (V c main_v40 : S1x128.Idx → EReal) _ = _
  refine congrArg _ ?_
  funext d; apply Fin.ext
  match d with
  | ⟨0, _⟩ => show win1_6.index t (0 : Fin 2) * 1 + 1 * a.val = a.val; rw [e0]; omega
  | ⟨1, _⟩ => show win1_6.index t (1 : Fin 2) * 128 + 1 * b.val = b.val; rw [e1]; omega

/-- Input window 7 is its whole array at every point. -/
theorem blk1_7 (c : Dev nD) (t : Fin cfg1.N) (a : Fin 1) (b : Fin 128) :
    (iblk1 V c 7 t : S1x128.Idx → EReal) (ix2 a b) = (V c main_v41 : S1x128.Idx → EReal) (ix2 a b) := by
  obtain ⟨e0, e1⟩ := idx1_7 t
  unfold iblk1
  rw [View.read_apply]
  show (V c main_v41 : S1x128.Idx → EReal) _ = _
  refine congrArg _ ?_
  funext d; apply Fin.ext
  match d with
  | ⟨0, _⟩ => show win1_7.index t (0 : Fin 2) * 1 + 1 * a.val = a.val; rw [e0]; omega
  | ⟨1, _⟩ => show win1_7.index t (1 : Fin 2) * 128 + 1 * b.val = b.val; rw [e1]; omega

/-- Input window 8 is its whole array at every point. -/
theorem blk1_8 (c : Dev nD) (t : Fin cfg1.N) (a : Fin 1) (b : Fin 128) :
    (iblk1 V c 8 t : S1x128.Idx → EReal) (ix2 a b) = (V c main_v42 : S1x128.Idx → EReal) (ix2 a b) := by
  obtain ⟨e0, e1⟩ := idx1_8 t
  unfold iblk1
  rw [View.read_apply]
  show (V c main_v42 : S1x128.Idx → EReal) _ = _
  refine congrArg _ ?_
  funext d; apply Fin.ext
  match d with
  | ⟨0, _⟩ => show win1_8.index t (0 : Fin 2) * 1 + 1 * a.val = a.val; rw [e0]; omega
  | ⟨1, _⟩ => show win1_8.index t (1 : Fin 2) * 128 + 1 * b.val = b.val; rw [e1]; omega

/-- Input window 9 is its whole array at every point. -/
theorem blk1_9 (c : Dev nD) (t : Fin cfg1.N) (a : Fin 1) (b : Fin 128) :
    (iblk1 V c 9 t : S1x128.Idx → EReal) (ix2 a b) = (V c main_v43 : S1x128.Idx → EReal) (ix2 a b) := by
  obtain ⟨e0, e1⟩ := idx1_9 t
  unfold iblk1
  rw [View.read_apply]
  show (V c main_v43 : S1x128.Idx → EReal) _ = _
  refine congrArg _ ?_
  funext d; apply Fin.ext
  match d with
  | ⟨0, _⟩ => show win1_9.index t (0 : Fin 2) * 1 + 1 * a.val = a.val; rw [e0]; omega
  | ⟨1, _⟩ => show win1_9.index t (1 : Fin 2) * 128 + 1 * b.val = b.val; rw [e1]; omega

/-- Input window 10 is its whole array at every point. -/
theorem blk1_10 (c : Dev nD) (t : Fin cfg1.N) (a : Fin 128) (b : Fin 64) :
    (iblk1 V c 10 t : S128x64.Idx → EReal) (ix2 a b) = (V c main_arg16 : S128x64.Idx → EReal) (ix2 a b) := by
  obtain ⟨e0, e1⟩ := idx1_10 t
  unfold iblk1
  rw [View.read_apply]
  show (V c main_arg16 : S128x64.Idx → EReal) _ = _
  refine congrArg _ ?_
  funext d; apply Fin.ext
  match d with
  | ⟨0, _⟩ => show win1_10.index t (0 : Fin 2) * 128 + 1 * a.val = a.val; rw [e0]; omega
  | ⟨1, _⟩ => show win1_10.index t (1 : Fin 2) * 64 + 1 * b.val = b.val; rw [e1]; omega

/-- Output window 11's block at point `t` lands on rows `5000 t … 5000 t + 4999` of its array. -/
theorem emb1_11 (t : Fin cfg1.N) (r : Fin 5000) (j : Fin 128) :
    ((cfg1.win 11).blk t).view.emb (ix2 r j : S5000x128.Idx) = (ix2 (row1 t r) j : S100000x128.Idx) := by
  obtain ⟨e0, e1⟩ := idx1_11 t
  funext a; apply Fin.ext
  match a with
  | ⟨0, _⟩ => show win1_11.index t (0 : Fin 2) * 5000 + 1 * r.val = t.val * 5000 + r.val; rw [e0]; omega
  | ⟨1, _⟩ => show win1_11.index t (1 : Fin 2) * 128 + 1 * j.val = j.val; rw [e1]; omega

/-- Every entry of output window 11's array is in the block of the point its row falls in. -/
theorem cover1_11 (c : Dev nD) (i : ((cfg1.win 11).arr.view.loc (c.tc : Thread nD τ)).2.ty.Idx) :
    ∃ t : Fin cfg1.N, (cfg1.win 11).flush t = true ∧ i ∈ ((cfg1.win 11).blk t).view.set := by
  have hN : cfg1.N = 20 := N_1
  have h0 : (i 0).val < 100000 := (i 0).isLt
  have h1 : (i 1).val < 128 := (i 1).isLt
  have ht : (i 0).val / 5000 < cfg1.N := by omega
  refine ⟨⟨(i 0).val / 5000, ht⟩, flush1_11 _, ?_⟩
  obtain ⟨e0, e1⟩ := idx1_11 ⟨(i 0).val / 5000, ht⟩
  show i ∈ ((View.whole main_v44_0).slice (win1_11.rect ⟨(i 0).val / 5000, ht⟩)).set
  rw [View.set_slice_whole, Rect.mem_set_unit]
  intro a
  match a with
  | ⟨0, _⟩ =>
    show win1_11.index ⟨(i 0).val / 5000, ht⟩ (0 : Fin 2) * 5000 ≤ (i 0).val ∧ (i 0).val < win1_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_11.index ⟨(i 0).val / 5000, ht⟩ (1 : Fin 2) * 128 ≤ (i 1).val ∧ (i 1).val < win1_11.index ⟨(i 0).val / 5000, ht⟩ (1 : Fin 2) * 128 + 128
    rw [e1]; omega

/-- Output window 12's block at point `t` lands on rows `5000 t … 5000 t + 4999` of its array. -/
theorem emb1_12 (t : Fin cfg1.N) (r : Fin 5000) (j : Fin 64) :
    ((cfg1.win 12).blk t).view.emb (ix2 r j : S5000x64.Idx) = (ix2 (row1 t r) j : S100000x64.Idx) := by
  obtain ⟨e0, e1⟩ := idx1_12 t
  funext a; apply Fin.ext
  match a with
  | ⟨0, _⟩ => show win1_12.index t (0 : Fin 2) * 5000 + 1 * r.val = t.val * 5000 + r.val; rw [e0]; omega
  | ⟨1, _⟩ => show win1_12.index t (1 : Fin 2) * 64 + 1 * j.val = j.val; rw [e1]; omega

/-- Every entry of output window 12's array is in the block of the point its row falls in. -/
theorem cover1_12 (c : Dev nD) (i : ((cfg1.win 12).arr.view.loc (c.tc : Thread nD τ)).2.ty.Idx) :
    ∃ t : Fin cfg1.N, (cfg1.win 12).flush t = true ∧ i ∈ ((cfg1.win 12).blk t).view.set := by
  have hN : cfg1.N = 20 := N_1
  have h0 : (i 0).val < 100000 := (i 0).isLt
  have h1 : (i 1).val < 64 := (i 1).isLt
  have ht : (i 0).val / 5000 < cfg1.N := by omega
  refine ⟨⟨(i 0).val / 5000, ht⟩, flush1_12 _, ?_⟩
  obtain ⟨e0, e1⟩ := idx1_12 ⟨(i 0).val / 5000, ht⟩
  show i ∈ ((View.whole main_v44_1).slice (win1_12.rect ⟨(i 0).val / 5000, ht⟩)).set
  rw [View.set_slice_whole, Rect.mem_set_unit]
  intro a
  match a with
  | ⟨0, _⟩ =>
    show win1_12.index ⟨(i 0).val / 5000, ht⟩ (0 : Fin 2) * 5000 ≤ (i 0).val ∧ (i 0).val < win1_12.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, ht⟩ (1 : Fin 2) * 64 ≤ (i 1).val ∧ (i 1).val < win1_12.index ⟨(i 0).val / 5000, ht⟩ (1 : Fin 2) * 64 + 64
    rw [e1]; omega

end Cert.Sage.KBlk1

end
-- ==== Proof.KReg1.lean ====
/-
  The second region's two output arrays.

  At a grid point the body stores, at row `r`, the second hidden layer's entries computed from row `r` of the point's
  three row blocks and the parameter arrays, and, into a second output, that row multiplied with the last layer's
  neighbour weights; both outputs' blocks tile their arrays, so the arrays end at `KG.hidden` of the region's input
  arrays and at `KG.pre3` of that.
-/
import proofs.«136812_j29686813950021_2_alg».proof.Proof.Gen.KernelIdeal.Frame
import proofs.«136812_j29686813950021_2_alg».proof.Proof.KBlk1
import proofs.«136812_j29686813950021_2_alg».proof.Proof.KG
import proofs.«136812_j29686813950021_2_alg».proof.Proof.Pay
import Idealize.ShloMosaic.Lib.Pipeline.Value

set_option maxRecDepth 16384

noncomputable section

namespace Cert.Sage.KReg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden array the region leaves. -/
abbrev resultH (c : Dev nD) : S100000x128.Idx → EReal :=
  KG.hidden (V c main_v38) (V c main_v28) (V c main_v12) (V c main_arg9) (V c main_v39) (V c main_arg11)
    (V c main_v40) (V c main_v41) (V c main_v42) (V c main_v43)

/-- The pre-multiplied array the region leaves: the hidden array's rows against the last layer's neighbour weights. -/
abbrev resultY (c : Dev nD) : S100000x64.Idx → EReal := KG.pre3 (resultH V c) (V c main_arg16)

/-- What point `t` writes back into the first output is block `t` of `resultH`. -/
theorem flushedH (c : Dev nD) (t : Fin cfg1.N) :
    (dat1 V c).flushed 11 t = ((cfg1.win 11).blk t).view.read (Elt Ideal) (resultH V c) := by
  show (cfg1.win 11).cut (grid1.coords t) ((dat1 V c).after 11 t) = _
  rw [after1_11]
  unfold out1_11
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x64) hz, View.ld_unit_zero (S := S5000x64) hz]
  funext y
  obtain ⟨r, j, rfl⟩ : ∃ (r : Fin 5000) (j : Fin 128), y = ix2 r j := ⟨y 0, y 1, eq_ix2 y⟩
  show k1_pay1 (k1_pay3 (iblk1 V c 0 t) (iblk1 V c 2 t) (iblk1 V c 1 t) (iblk1 V c 3 t) (iblk1 V c 5 t) (iblk1 V c 4 t)
        (iblk1 V c 6 t) (iblk1 V c 9 t) (iblk1 V c 8 t)) (iblk1 V c 7 t) (ix2 r j)
      = resultH V c (((cfg1.win 11).blk t).view.emb (ix2 r j : S5000x128.Idx))
  rw [KBlk1.emb1_11]
  unfold resultH
  rw [KG.hidden_apply]
  refine (Pay.pay1h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r j).trans ?_
  simp only [KBlk1.blk1_0 V c t, KBlk1.blk1_1 V c t, KBlk1.blk1_2 V c t, KBlk1.blk1_3 V c t, KBlk1.blk1_4 V c t, KBlk1.blk1_5 V c t, KBlk1.blk1_6 V c t, KBlk1.blk1_7 V c t, KBlk1.blk1_8 V c t, KBlk1.blk1_9 V c t]

/-- What point `t` writes back into the second output is block `t` of `resultY`. -/
theorem flushedY (c : Dev nD) (t : Fin cfg1.N) :
    (dat1 V c).flushed 12 t = ((cfg1.win 12).blk t).view.read (Elt Ideal) (resultY V c) := by
  show (cfg1.win 12).cut (grid1.coords t) ((dat1 V c).after 12 t) = _
  rw [after1_12]
  unfold out1_12
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x64) hz, View.ld_unit_zero (S := S5000x64) hz]
  funext y
  obtain ⟨r, j, rfl⟩ : ∃ (r : Fin 5000) (j : Fin 64), y = ix2 r j := ⟨y 0, y 1, eq_ix2 y⟩
  show k1_pay2 (k1_pay3 (iblk1 V c 0 t) (iblk1 V c 2 t) (iblk1 V c 1 t) (iblk1 V c 3 t) (iblk1 V c 5 t) (iblk1 V c 4 t)
        (iblk1 V c 6 t) (iblk1 V c 9 t) (iblk1 V c 8 t)) (iblk1 V c 7 t) (iblk1 V c 10 t) (ix2 r j)
      = resultY V c (((cfg1.win 12).blk t).view.emb (ix2 r j : S5000x64.Idx))
  rw [KBlk1.emb1_12]
  unfold resultY
  rw [KG.pre3_apply]
  refine (Pay.pay1y (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) r j).trans ?_
  unfold resultH
  simp only [KG.hidden_apply, KBlk1.blk1_0 V c t, KBlk1.blk1_1 V c t, KBlk1.blk1_2 V c t, KBlk1.blk1_3 V c t, KBlk1.blk1_4 V c t, KBlk1.blk1_5 V c t, KBlk1.blk1_6 V c t, KBlk1.blk1_7 V c t, KBlk1.blk1_8 V c t, KBlk1.blk1_9 V c t, KBlk1.blk1_10 V c t]

/-- The two output arrays after the region's last point. -/
theorem finalH (c : Dev nD) : (dat1 V c).arrAt 11 cfg1.N = resultH V c :=
  (dat1 V c).arrAt_eq_of_cover 11 (resultH V c) (fun t _ => flushedH V c t) (KBlk1.cover1_11 c)

theorem finalY (c : Dev nD) : (dat1 V c).arrAt 12 cfg1.N = resultY V c :=
  (dat1 V c).arrAt_eq_of_cover 12 (resultY V c) (fun t _ => flushedY V c t) (KBlk1.cover1_12 c)

end Cert.Sage.KReg1

end
-- ==== Proof.KBlk2.lean ====
/-
  Region 2 of the kernel program: which entries of its arrays each block is.

  The region's grid has 20 points; a row-blocked window's block at point `t` is rows `5000 t … 5000 t + 4999` of its
  array (all columns), a parameter window's block is the whole array at every point; the output blocks tile the
  output array.
-/
import proofs.«136812_j29686813950021_2_alg».proof.Proof.Gen.KernelIdeal.Frame
import Idealize.ShloMosaic.Lib.Pipeline.Value
import Idealize.ShloMosaic.Lib.ValueIdx

set_option maxRecDepth 16384

noncomputable section

namespace Cert.Sage.KBlk2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 2: which rows of its arrays each block is -/

/-- The array row that row `r` of a block at grid point `t` is: the blocks are 5000 consecutive rows each, in order. -/
def row2 (t : Fin cfg2.N) (r : Fin 5000) : Fin 100000 :=
  ⟨t.val * 5000 + r.val, by have := t.isLt; have hN : cfg2.N = 20 := N_2; omega⟩

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-- Input window 0's block at point `t` is rows `5000 t … 5000 t + 4999` of its array. -/
theorem blk2_0 (c : Dev nD) (t : Fin cfg2.N) (r : Fin 5000) (k : Fin 64) :
    (iblk2 V c 0 t : S5000x64.Idx → EReal) (ix2 r k) = (V c main_v54 : S100000x64.Idx → EReal) (ix2 (row2 t r) k) := by
  obtain ⟨e0, e1⟩ := idx2_0 t
  unfold iblk2
  rw [View.read_apply]
  show (V c main_v54 : S100000x64.Idx → EReal) _ = _
  refine congrArg _ ?_
  funext a; apply Fin.ext
  match a with
  | ⟨0, _⟩ => show win2_0.index t (0 : Fin 2) * 5000 + 1 * r.val = t.val * 5000 + r.val; rw [e0]; omega
  | ⟨1, _⟩ => show win2_0.index t (1 : Fin 2) * 64 + 1 * k.val = k.val; rw [e1]; omega

/-- Input window 1's block at point `t` is rows `5000 t … 5000 t + 4999` of its array. -/
theorem blk2_1 (c : Dev nD) (t : Fin cfg2.N) (r : Fin 5000) (k : Fin 128) :
    (iblk2 V c 1 t : S5000x128.Idx → EReal) (ix2 r k) = (V c main_v44_0 : S100000x128.Idx → EReal) (ix2 (row2 t r) k) := by
  obtain ⟨e0, e1⟩ := idx2_1 t
  unfold iblk2
  rw [View.read_apply]
  show (V c main_v44_0 : S100000x128.Idx → EReal) _ = _
  refine congrArg _ ?_
  funext a; apply Fin.ext
  match a with
  | ⟨0, _⟩ => show win2_1.index t (0 : Fin 2) * 5000 + 1 * r.val = t.val * 5000 + r.val; rw [e0]; omega
  | ⟨1, _⟩ => show win2_1.index t (1 : Fin 2) * 128 + 1 * k.val = k.val; rw [e1]; omega

/-- Input window 2's block at point `t` is rows `5000 t … 5000 t + 4999` of its array. -/
theorem blk2_2 (c : Dev nD) (t : Fin cfg2.N) (r : Fin 5000) (k : Fin 1) :
    (iblk2 V c 2 t : S5000x1.Idx → EReal) (ix2 r k) = (V c main_v12 : S100000x1.Idx → EReal) (ix2 (row2 t r) k) := by
  obtain ⟨e0, e1⟩ := idx2_2 t
  unfold iblk2
  rw [View.read_apply]
  show (V c main_v12 : S100000x1.Idx → EReal) _ = _
  refine congrArg _ ?_
  funext a; apply Fin.ext
  match a with
  | ⟨0, _⟩ => show win2_2.index t (0 : Fin 2) * 5000 + 1 * r.val = t.val * 5000 + r.val; rw [e0]; omega
  | ⟨1, _⟩ => show win2_2.index t (1 : Fin 2) * 1 + 1 * k.val = k.val; rw [e1]; omega

/-- Input window 3 is its whole array at every point. -/
theorem blk2_3 (c : Dev nD) (t : Fin cfg2.N) (a : Fin 128) (b : Fin 64) :
    (iblk2 V c 3 t : S128x64.Idx → EReal) (ix2 a b) = (V c main_arg18 : S128x64.Idx → EReal) (ix2 a b) := by
  obtain ⟨e0, e1⟩ := idx2_3 t
  unfold iblk2
  rw [View.read_apply]
  show (V c main_arg18 : S128x64.Idx → EReal) _ = _
  refine congrArg _ ?_
  funext d; apply Fin.ext
  match d with
  | ⟨0, _⟩ => show win2_3.index t (0 : Fin 2) * 128 + 1 * a.val = a.val; rw [e0]; omega
  | ⟨1, _⟩ => show win2_3.index t (1 : Fin 2) * 64 + 1 * b.val = b.val; rw [e1]; omega

/-- Input window 4 is its whole array at every point. -/
theorem blk2_4 (c : Dev nD) (t : Fin cfg2.N) (a : Fin 1) (b : Fin 64) :
    (iblk2 V c 4 t : S1x64.Idx → EReal) (ix2 a b) = (V c main_v55 : S1x64.Idx → EReal) (ix2 a b) := by
  obtain ⟨e0, e1⟩ := idx2_4 t
  unfold iblk2
  rw [View.read_apply]
  show (V c main_v55 : S1x64.Idx → EReal) _ = _
  refine congrArg _ ?_
  funext d; apply Fin.ext
  match d with
  | ⟨0, _⟩ => show win2_4.index t (0 : Fin 2) * 1 + 1 * a.val = a.val; rw [e0]; omega
  | ⟨1, _⟩ => show win2_4.index t (1 : Fin 2) * 64 + 1 * b.val = b.val; rw [e1]; omega

/-- Output window 5's block at point `t` lands on rows `5000 t … 5000 t + 4999` of its array. -/
theorem emb2_5 (t : Fin cfg2.N) (r : Fin 5000) (j : Fin 64) :
    ((cfg2.win 5).blk t).view.emb (ix2 r j : S5000x64.Idx) = (ix2 (row2 t r) j : S100000x64.Idx) := by
  obtain ⟨e0, e1⟩ := idx2_5 t
  funext a; apply Fin.ext
  match a with
  | ⟨0, _⟩ => show win2_5.index t (0 : Fin 2) * 5000 + 1 * r.val = t.val * 5000 + r.val; rw [e0]; omega
  | ⟨1, _⟩ => show win2_5.index t (1 : Fin 2) * 64 + 1 * j.val = j.val; rw [e1]; omega

/-- Every entry of output window 5's array is in the block of the point its row falls in. -/
theorem cover2_5 (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 20 := N_2
  have h0 : (i 0).val < 100000 := (i 0).isLt
  have h1 : (i 1).val < 64 := (i 1).isLt
  have ht : (i 0).val / 5000 < cfg2.N := by omega
  refine ⟨⟨(i 0).val / 5000, ht⟩, flush2_5 _, ?_⟩
  obtain ⟨e0, e1⟩ := idx2_5 ⟨(i 0).val / 5000, ht⟩
  show i ∈ ((View.whole main_v56).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]; omega

end Cert.Sage.KBlk2

end
-- ==== Proof.KReg2.lean ====
/-
  The last region's output array.

  At a grid point the body's one store writes, at row `r` and column `j` of the block, the last layer's entry
  computed from row `r` of the point's row blocks and the parameter arrays; the blocks tile the array, so the whole
  array ends at `KG.last` of the region's input arrays as the region finds them.
-/
import proofs.«136812_j29686813950021_2_alg».proof.Proof.Gen.KernelIdeal.Frame
import proofs.«136812_j29686813950021_2_alg».proof.Proof.KBlk2
import proofs.«136812_j29686813950021_2_alg».proof.Proof.KG
import proofs.«136812_j29686813950021_2_alg».proof.Proof.Pay
import Idealize.ShloMosaic.Lib.Pipeline.Value

set_option maxRecDepth 16384

noncomputable section

namespace Cert.Sage.KReg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: the last layer of its five input arrays. -/
abbrev result (c : Dev nD) : S100000x64.Idx → EReal :=
  KG.last (V c main_v54) (V c main_v44_0) (V c main_v12) (V c main_arg18) (V c main_v55)

/-- What point `t` writes back is block `t` of `result`. -/
theorem flushed (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x128) hz, View.ld_unit_zero (S := S5000x1) hz, View.ld_unit_zero (S := S128x64) hz, View.ld_unit_zero (S := S1x64) hz]
  funext y
  obtain ⟨r, j, rfl⟩ : ∃ (r : Fin 5000) (j : Fin 64), y = ix2 r j := ⟨y 0, y 1, eq_ix2 y⟩
  show k2_pay1 (iblk2 V c 0 t) (iblk2 V c 2 t) (iblk2 V c 1 t) (iblk2 V c 3 t) (iblk2 V c 4 t) (ix2 r j)
      = result V c (((cfg2.win 5).blk t).view.emb (ix2 r j : S5000x64.Idx))
  rw [KBlk2.emb2_5]
  unfold result
  rw [KG.last_apply]
  refine (Pay.pay2 (iblk2 V c 0 t) (iblk2 V c 1 t) (iblk2 V c 2 t) (iblk2 V c 3 t) (iblk2 V c 4 t) r j).trans ?_
  simp only [KBlk2.blk2_0 V c t, KBlk2.blk2_1 V c t, KBlk2.blk2_2 V c t, KBlk2.blk2_3 V c t, KBlk2.blk2_4 V c t]

/-- The output array after the region's last point. -/
theorem final (c : Dev nD) : (dat2 V c).arrAt 5 cfg2.N = result V c :=
  (dat2 V c).arrAt_eq_of_cover 5 (result V c) (fun t _ => flushed V c t) (KBlk2.cover2_5 c)

end Cert.Sage.KReg2

end
-- ==== Proof.KFun.lean ====
/-
  The kernel program as a function of its nineteen argument arrays.

  From the edge list: the two index columns (sources, with a negative index counted from the end, and targets) and
  the reciprocal of each node's in-degree (at least one). Then three times "sum each node's in-neighbours' rows, then
  a layer": two hidden layers (`KG.hidden`), the second one's rows also multiplied with the last layer's neighbour
  weights (`KG.pre3`), and the last layer (`KG.last`) over the neighbour sum of those pre-multiplied rows.
-/
import proofs.«136812_j29686813950021_2_alg».proof.Proof.Gen.KernelIdeal
import proofs.«136812_j29686813950021_2_alg».proof.Proof.Spec
import proofs.«136812_j29686813950021_2_alg».proof.Proof.KG
import Idealize.ShloMosaic.PureOps.Ideal
import Idealize.ShloMosaic.PureOps.Contract
import Idealize.ShloMosaic.Lib.ValueIdx

noncomputable section

namespace Cert.Sage.KFun

open Cert.KernelIdeal Cert.KernelIdeal.Gen
open Idealize.ShloMosaic Idealize.ShloMosaic.ValueIdx

/-! ## The host operations' terms -/

/-- The edges' source nodes: row 0 of the edge list. -/
def srcList (x1 : (⟨S2x600000, .i32⟩ : BufTy).Contents (Elt Ideal)) : (⟨S600000, .i32⟩ : BufTy).Contents (Elt Ideal) :=
  shapeCast S600000 (extractStridedSlice S1x600000 ![0, 0] x1 slices_S2x600000_S1x600000_0_0) shapeCasts_S1x600000_S600000

/-- The edges' target nodes: row 1 of the edge list. -/
def dstList (x1 : (⟨S2x600000, .i32⟩ : BufTy).Contents (Elt Ideal)) : (⟨S600000, .i32⟩ : BufTy).Contents (Elt Ideal) :=
  shapeCast S600000 (extractStridedSlice S1x600000 ![1, 0] x1 slices_S2x600000_S1x600000_1_0) shapeCasts_S1x600000_S600000

/-- The source column a row gather reads: a negative index counts from the end. -/
def srcCol (v1 : (⟨S600000, .i32⟩ : BufTy).Contents (Elt Ideal)) : (⟨S600000x1, .i32⟩ : BufTy).Contents (Elt Ideal) :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)

/-- The target column an accumulating row scatter reads. -/
def dstCol (v3 : (⟨S600000, .i32⟩ : BufTy).Contents (Elt Ideal)) : (⟨S600000x1, .i32⟩ : BufTy).Contents (Elt Ideal) :=
  broadcastInDim S600000x1 ![0] bcast_S600000_S600000x1_0 v3

def zero128 : (⟨S100000x128, .f32⟩ : BufTy).Contents (Elt Ideal) :=
  broadcastInDim S100000x128 ![] bcast_S_S100000x128 (constant (F := Ideal) S_ .f32 0x00000000#32)

def zero64 : (⟨S100000x64, .f32⟩ : BufTy).Contents (Elt Ideal) :=
  broadcastInDim S100000x64 ![] bcast_S_S100000x64 (constant (F := Ideal) S_ .f32 0x00000000#32)

/-- Each node's row: the sum of its in-neighbours' rows of `feat` (128 columns). -/
def agg128 (sI dI : (⟨S600000x1, .i32⟩ : BufTy).Contents (Elt Ideal)) (feat : (⟨S100000x128, .f32⟩ : BufTy).Contents (Elt Ideal)) : (⟨S100000x128, .f32⟩ : BufTy).Contents (Elt Ideal) :=
  Host.scatterAdd (F := Ideal) (φ := .f32) scatter_S100000x128_S600000x1_S600000x128_1_0_0_1 zero128 dI
    (Host.gather gather_S100000x128_S600000x1_S600000x128_1_0_n_n_0_1_1128 feat sI)

/-- The same over 64 columns. -/
def agg64 (sI dI : (⟨S600000x1, .i32⟩ : BufTy).Contents (Elt Ideal)) (feat : (⟨S100000x64, .f32⟩ : BufTy).Contents (Elt Ideal)) : (⟨S100000x64, .f32⟩ : BufTy).Contents (Elt Ideal) :=
  Host.scatterAdd (F := Ideal) (φ := .f32) scatter_S100000x64_S600000x1_S600000x64_1_0_0_1 zero64 dI
    (Host.gather gather_S100000x64_S600000x1_S600000x64_1_0_n_n_0_1_164 feat sI)

/-- Each node's in-degree, at least one. -/
def deg (dI : (⟨S600000x1, .i32⟩ : BufTy).Contents (Elt Ideal)) : (⟨S100000, .f32⟩ : BufTy).Contents (Elt Ideal) :=
  maximumf (F := Ideal) (φ := .f32)
    (Host.scatterAdd (F := Ideal) (φ := .f32) scatter_S100000_S600000x1_S600000_n_0_0_1
      (broadcastInDim S100000 ![] bcast_S_S100000 (constant (F := Ideal) S_ .f32 0x00000000#32)) dI
      (broadcastInDim S600000 ![] bcast_S_S600000 (constant (F := Ideal) S_ .f32 0x3F800000#32)))
    (broadcastInDim S100000 ![] bcast_S_S100000 (constant (F := Ideal) S_ .f32 0x3F800000#32))

/-- Its reciprocal, as a column. -/
def degInv (dI : (⟨S600000x1, .i32⟩ : BufTy).Contents (Elt Ideal)) : (⟨S100000x1, .f32⟩ : BufTy).Contents (Elt Ideal) :=
  shapeCast S100000x1
    (Host.divf (F := Ideal) (φ := .f32) (broadcastInDim S100000 ![] bcast_S_S100000 (constant (F := Ideal) S_ .f32 0x3F800000#32)) (deg dI))
    shapeCasts_S100000_S100000x1

/-- A parameter vector as a one-row matrix. -/
def rowVec (x : (⟨S128, .f32⟩ : BufTy).Contents (Elt Ideal)) : (⟨S1x128, .f32⟩ : BufTy).Contents (Elt Ideal) := shapeCast S1x128 x shapeCasts_S128_S1x128

def rowVec64 (x : (⟨S64, .f32⟩ : BufTy).Contents (Elt Ideal)) : (⟨S1x64, .f32⟩ : BufTy).Contents (Elt Ideal) := shapeCast S1x64 x shapeCasts_S64_S1x64

/-! ## The chain of arrays -/

/-- The source column of the edge list `x1`. -/
abbrev sI (x1 : (⟨S2x600000, .i32⟩ : BufTy).Contents (Elt Ideal)) : (⟨S600000x1, .i32⟩ : BufTy).Contents (Elt Ideal) := srcCol (srcList x1)
/-- The target column of the edge list `x1`. -/
abbrev dI (x1 : (⟨S2x600000, .i32⟩ : BufTy).Contents (Elt Ideal)) : (⟨S600000x1, .i32⟩ : BufTy).Contents (Elt Ideal) := dstCol (dstList x1)

/-- The first hidden layer's array. -/
def H1 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) : S100000x128.Idx → EReal :=
  KG.hidden (agg128 (sI x1) (dI x1) x0) x0 (degInv (dI x1)) x2 (rowVec x3) x4 (rowVec x5) (rowVec x6) (rowVec x7) (rowVec x8)

/-- The second hidden layer's array. -/
def H2 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) : S100000x128.Idx → EReal :=
  KG.hidden (agg128 (sI x1) (dI x1) (H1 x0 x1 x2 x3 x4 x5 x6 x7 x8)) (H1 x0 x1 x2 x3 x4 x5 x6 x7 x8) (degInv (dI x1)) x9 (rowVec x10) x11
    (rowVec x12) (rowVec x13) (rowVec x14) (rowVec x15)

/-- Its rows against the last layer's neighbour weights. -/
def Y3 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x64, .f32⟩ : BufTy).Contents (Elt Ideal)) : S100000x64.Idx → EReal := KG.pre3 (H2 x0 x1 x2 x3 x4 x5 x6 x7 x8 x9 x10 x11 x12 x13 x14 x15) x16

/-- The result array. -/
def OUT (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S128x64, .f32⟩ : BufTy).Contents (Elt Ideal)) : S100000x64.Idx → EReal :=
  KG.last (agg64 (sI x1) (dI x1) (Y3 x0 x1 x2 x3 x4 x5 x6 x7 x8 x9 x10 x11 x12 x13 x14 x15 x16)) (H2 x0 x1 x2 x3 x4 x5 x6 x7 x8 x9 x10 x11 x12 x13 x14 x15) (degInv (dI x1)) x18 (rowVec64 x17)

end Cert.Sage.KFun

end
-- ==== Proof.KVal.lean ====
/-
  The kernel program's result buffer at the end of its run: the program's function of the argument arrays.

  Every buffer a region reads is followed back — through the stretches of host operations (which write only their own
  results) and the earlier regions (whose input arrays end as they were, and whose output arrays end at the region's
  whole-array function) — to the launch contents of the arguments; composing the three regions gives `KFun.OUT`.
-/
import proofs.«136812_j29686813950021_2_alg».proof.Proof.Gen.KernelIdeal.Frame
import proofs.«136812_j29686813950021_2_alg».proof.Proof.KRun
import proofs.«136812_j29686813950021_2_alg».proof.Proof.KReg0
import proofs.«136812_j29686813950021_2_alg».proof.Proof.KReg1
import proofs.«136812_j29686813950021_2_alg».proof.Proof.KReg2
import proofs.«136812_j29686813950021_2_alg».proof.Proof.KG
import proofs.«136812_j29686813950021_2_alg».proof.Proof.KFun
import Idealize.ShloMosaic.Lib.StableHlo.Run
import Idealize.ShloMosaic.Lib.Pipeline.Value

set_option maxRecDepth 16384

noncomputable section

namespace Cert.Sage.KVal

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.Sage.KFun

variable (m : (ℓ : Loc nD τ sig) → Buf (Elt Ideal) ℓ) (ρ : Dev nD → PrngReg) (c : Dev nD)

/-- A stretch of host operations leaves a buffer it does not write as it found it. -/
macro "not_written" ops:ident : tactic => `(tactic| (
  refine StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

/-! ### The first stretch and the first region -/

theorem w1_v1 : W1 m ρ c (Proc.devRef .tc main_v1) = srcList (W0 m ρ c (Proc.devRef .tc main_arg1)) := by
  show StableHlo.after hostOps0 (W0 m ρ c) (Proc.devRef .tc main_v1) = _
  after_results_simp; rfl
theorem w1_v3 : W1 m ρ c (Proc.devRef .tc main_v3) = dstList (W0 m ρ c (Proc.devRef .tc main_arg1)) := by
  show StableHlo.after hostOps0 (W0 m ρ c) (Proc.devRef .tc main_v3) = _
  after_results_simp; rfl
theorem v1_v22 : V1 m ρ c main_v22 = agg128 (sI (W0 m ρ c (Proc.devRef .tc main_arg1))) (dI (W0 m ρ c (Proc.devRef .tc main_arg1))) (W0 m ρ c (Proc.devRef .tc main_arg0)) := by
  show StableHlo.after hostOps0 (W0 m ρ c) (Proc.devRef .tc main_v22) = _
  after_results_simp; rfl
theorem v1_v12 : V1 m ρ c main_v12 = degInv (dI (W0 m ρ c (Proc.devRef .tc main_arg1))) := by
  show StableHlo.after hostOps0 (W0 m ρ c) (Proc.devRef .tc main_v12) = _
  after_results_simp; rfl
theorem v1_v23 : V1 m ρ c main_v23 = rowVec (W0 m ρ c (Proc.devRef .tc main_arg3)) := by
  show StableHlo.after hostOps0 (W0 m ρ c) (Proc.devRef .tc main_v23) = _
  after_results_simp; rfl
theorem v1_v24 : V1 m ρ c main_v24 = rowVec (W0 m ρ c (Proc.devRef .tc main_arg5)) := by
  show StableHlo.after hostOps0 (W0 m ρ c) (Proc.devRef .tc main_v24) = _
  after_results_simp; rfl
theorem v1_v25 : V1 m ρ c main_v25 = rowVec (W0 m ρ c (Proc.devRef .tc main_arg6)) := by
  show StableHlo.after hostOps0 (W0 m ρ c) (Proc.devRef .tc main_v25) = _
  after_results_simp; rfl
theorem v1_v26 : V1 m ρ c main_v26 = rowVec (W0 m ρ c (Proc.devRef .tc main_arg7)) := by
  show StableHlo.after hostOps0 (W0 m ρ c) (Proc.devRef .tc main_v26) = _
  after_results_simp; rfl
theorem v1_v27 : V1 m ρ c main_v27 = rowVec (W0 m ρ c (Proc.devRef .tc main_arg8)) := by
  show StableHlo.after hostOps0 (W0 m ρ c) (Proc.devRef .tc main_v27) = _
  after_results_simp; rfl
theorem w1_arg0 : W1 m ρ c (Proc.devRef .tc main_arg0) = (W0 m ρ c (Proc.devRef .tc main_arg0)) := by
  not_written hostOps0
theorem w1_arg2 : W1 m ρ c (Proc.devRef .tc main_arg2) = (W0 m ρ c (Proc.devRef .tc main_arg2)) := by
  not_written hostOps0
theorem w1_arg4 : W1 m ρ c (Proc.devRef .tc main_arg4) = (W0 m ρ c (Proc.devRef .tc main_arg4)) := by
  not_written hostOps0
theorem w1_arg9 : W1 m ρ c (Proc.devRef .tc main_arg9) = (W0 m ρ c (Proc.devRef .tc main_arg9)) := by
  not_written hostOps0
theorem w1_arg10 : W1 m ρ c (Proc.devRef .tc main_arg10) = (W0 m ρ c (Proc.devRef .tc main_arg10)) := by
  not_written hostOps0
theorem w1_arg11 : W1 m ρ c (Proc.devRef .tc main_arg11) = (W0 m ρ c (Proc.devRef .tc main_arg11)) := by
  not_written hostOps0
theorem w1_arg12 : W1 m ρ c (Proc.devRef .tc main_arg12) = (W0 m ρ c (Proc.devRef .tc main_arg12)) := by
  not_written hostOps0
theorem w1_arg13 : W1 m ρ c (Proc.devRef .tc main_arg13) = (W0 m ρ c (Proc.devRef .tc main_arg13)) := by
  not_written hostOps0
theorem w1_arg14 : W1 m ρ c (Proc.devRef .tc main_arg14) = (W0 m ρ c (Proc.devRef .tc main_arg14)) := by
  not_written hostOps0
theorem w1_arg15 : W1 m ρ c (Proc.devRef .tc main_arg15) = (W0 m ρ c (Proc.devRef .tc main_arg15)) := by
  not_written hostOps0
theorem w1_arg16 : W1 m ρ c (Proc.devRef .tc main_arg16) = (W0 m ρ c (Proc.devRef .tc main_arg16)) := by
  not_written hostOps0
theorem w1_arg17 : W1 m ρ c (Proc.devRef .tc main_arg17) = (W0 m ρ c (Proc.devRef .tc main_arg17)) := by
  not_written hostOps0
theorem w1_arg18 : W1 m ρ c (Proc.devRef .tc main_arg18) = (W0 m ρ c (Proc.devRef .tc main_arg18)) := by
  not_written hostOps0

theorem w2_v28 : W2 m ρ c (Proc.devRef .tc main_v28) = H1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  refine (W2_arr m ρ c 10).trans ((KReg0.final (V1 m ρ) c).trans ?_)
  unfold KReg0.result H1
  rw [v1_v22, v1_v12, v1_v23, v1_v24, v1_v25, v1_v26, v1_v27]
  rw [show V1 m ρ c main_arg0 = (W0 m ρ c (Proc.devRef .tc main_arg0)) from w1_arg0 m ρ c, show V1 m ρ c main_arg2 = (W0 m ρ c (Proc.devRef .tc main_arg2)) from w1_arg2 m ρ c,
    show V1 m ρ c main_arg4 = (W0 m ρ c (Proc.devRef .tc main_arg4)) from w1_arg4 m ρ c]

/-! ### The second stretch and the second region -/

theorem w2_v1 : W2 m ρ c (Proc.devRef .tc main_v1) = srcList (W0 m ρ c (Proc.devRef .tc main_arg1)) :=
  (W2_of_ne m ρ c main_v1 (by decide)).trans (w1_v1 m ρ c)
theorem w2_v3 : W2 m ρ c (Proc.devRef .tc main_v3) = dstList (W0 m ρ c (Proc.devRef .tc main_arg1)) :=
  (W2_of_ne m ρ c main_v3 (by decide)).trans (w1_v3 m ρ c)
theorem w2_v12 : W2 m ρ c (Proc.devRef .tc main_v12) = degInv (dI (W0 m ρ c (Proc.devRef .tc main_arg1))) :=
  (W2_arr m ρ c 2).trans ((((dat0 (V1 m ρ) c).arrAt_in 2 rfl _).trans (A_eq0 (V1 m ρ) c 2)).trans (v1_v12 m ρ c))
theorem w2_arg9 : W2 m ρ c (Proc.devRef .tc main_arg9) = (W0 m ρ c (Proc.devRef .tc main_arg9)) :=
  (W2_of_ne m ρ c main_arg9 (by decide)).trans (w1_arg9 m ρ c)
theorem w2_arg10 : W2 m ρ c (Proc.devRef .tc main_arg10) = (W0 m ρ c (Proc.devRef .tc main_arg10)) :=
  (W2_of_ne m ρ c main_arg10 (by decide)).trans (w1_arg10 m ρ c)
theorem w2_arg11 : W2 m ρ c (Proc.devRef .tc main_arg11) = (W0 m ρ c (Proc.devRef .tc main_arg11)) :=
  (W2_of_ne m ρ c main_arg11 (by decide)).trans (w1_arg11 m ρ c)
theorem w2_arg12 : W2 m ρ c (Proc.devRef .tc main_arg12) = (W0 m ρ c (Proc.devRef .tc main_arg12)) :=
  (W2_of_ne m ρ c main_arg12 (by decide)).trans (w1_arg12 m ρ c)
theorem w2_arg13 : W2 m ρ c (Proc.devRef .tc main_arg13) = (W0 m ρ c (Proc.devRef .tc main_arg13)) :=
  (W2_of_ne m ρ c main_arg13 (by decide)).trans (w1_arg13 m ρ c)
theorem w2_arg14 : W2 m ρ c (Proc.devRef .tc main_arg14) = (W0 m ρ c (Proc.devRef .tc main_arg14)) :=
  (W2_of_ne m ρ c main_arg14 (by decide)).trans (w1_arg14 m ρ c)
theorem w2_arg15 : W2 m ρ c (Proc.devRef .tc main_arg15) = (W0 m ρ c (Proc.devRef .tc main_arg15)) :=
  (W2_of_ne m ρ c main_arg15 (by decide)).trans (w1_arg15 m ρ c)
theorem w2_arg16 : W2 m ρ c (Proc.devRef .tc main_arg16) = (W0 m ρ c (Proc.devRef .tc main_arg16)) :=
  (W2_of_ne m ρ c main_arg16 (by decide)).trans (w1_arg16 m ρ c)
theorem w2_arg17 : W2 m ρ c (Proc.devRef .tc main_arg17) = (W0 m ρ c (Proc.devRef .tc main_arg17)) :=
  (W2_of_ne m ρ c main_arg17 (by decide)).trans (w1_arg17 m ρ c)
theorem w2_arg18 : W2 m ρ c (Proc.devRef .tc main_arg18) = (W0 m ρ c (Proc.devRef .tc main_arg18)) :=
  (W2_of_ne m ρ c main_arg18 (by decide)).trans (w1_arg18 m ρ c)

theorem v3_v38 : V3 m ρ c main_v38 = agg128 (sI (W0 m ρ c (Proc.devRef .tc main_arg1))) (dI (W0 m ρ c (Proc.devRef .tc main_arg1))) (H1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) := by
  have e : V3 m ρ c main_v38 = agg128 (srcCol (W2 m ρ c (Proc.devRef .tc main_v1))) (dstCol (W2 m ρ c (Proc.devRef .tc main_v3)))
      (W2 m ρ c (Proc.devRef .tc main_v28)) := by
    show StableHlo.after hostOps1 (W2 m ρ c) (Proc.devRef .tc main_v38) = _
    after_results_simp; rfl
  rw [e, w2_v1, w2_v3, w2_v28]
theorem v3_v39 : V3 m ρ c main_v39 = rowVec (W0 m ρ c (Proc.devRef .tc main_arg10)) := by
  have e : V3 m ρ c main_v39 = rowVec (W2 m ρ c (Proc.devRef .tc main_arg10)) := by
    show StableHlo.after hostOps1 (W2 m ρ c) (Proc.devRef .tc main_v39) = _
    after_results_simp; rfl
  rw [e, w2_arg10]
theorem v3_v40 : V3 m ρ c main_v40 = rowVec (W0 m ρ c (Proc.devRef .tc main_arg12)) := by
  have e : V3 m ρ c main_v40 = rowVec (W2 m ρ c (Proc.devRef .tc main_arg12)) := by
    show StableHlo.after hostOps1 (W2 m ρ c) (Proc.devRef .tc main_v40) = _
    after_results_simp; rfl
  rw [e, w2_arg12]
theorem v3_v41 : V3 m ρ c main_v41 = rowVec (W0 m ρ c (Proc.devRef .tc main_arg13)) := by
  have e : V3 m ρ c main_v41 = rowVec (W2 m ρ c (Proc.devRef .tc main_arg13)) := by
    show StableHlo.after hostOps1 (W2 m ρ c) (Proc.devRef .tc main_v41) = _
    after_results_simp; rfl
  rw [e, w2_arg13]
theorem v3_v42 : V3 m ρ c main_v42 = rowVec (W0 m ρ c (Proc.devRef .tc main_arg14)) := by
  have e : V3 m ρ c main_v42 = rowVec (W2 m ρ c (Proc.devRef .tc main_arg14)) := by
    show StableHlo.after hostOps1 (W2 m ρ c) (Proc.devRef .tc main_v42) = _
    after_results_simp; rfl
  rw [e, w2_arg14]
theorem v3_v43 : V3 m ρ c main_v43 = rowVec (W0 m ρ c (Proc.devRef .tc main_arg15)) := by
  have e : V3 m ρ c main_v43 = rowVec (W2 m ρ c (Proc.devRef .tc main_arg15)) := by
    show StableHlo.after hostOps1 (W2 m ρ c) (Proc.devRef .tc main_v43) = _
    after_results_simp; rfl
  rw [e, w2_arg15]
theorem v3_v28 : V3 m ρ c main_v28 = H1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) :=
  (show W3 m ρ c (Proc.devRef .tc main_v28) = W2 m ρ c (Proc.devRef .tc main_v28) by not_written hostOps1).trans (w2_v28 m ρ c)
theorem v3_v12 : V3 m ρ c main_v12 = degInv (dI (W0 m ρ c (Proc.devRef .tc main_arg1))) :=
  (show W3 m ρ c (Proc.devRef .tc main_v12) = W2 m ρ c (Proc.devRef .tc main_v12) by not_written hostOps1).trans (w2_v12 m ρ c)
theorem w3_v1 : W3 m ρ c (Proc.devRef .tc main_v1) = srcList (W0 m ρ c (Proc.devRef .tc main_arg1)) :=
  (show W3 m ρ c (Proc.devRef .tc main_v1) = W2 m ρ c (Proc.devRef .tc main_v1) by not_written hostOps1).trans (w2_v1 m ρ c)
theorem w3_v3 : W3 m ρ c (Proc.devRef .tc main_v3) = dstList (W0 m ρ c (Proc.devRef .tc main_arg1)) :=
  (show W3 m ρ c (Proc.devRef .tc main_v3) = W2 m ρ c (Proc.devRef .tc main_v3) by not_written hostOps1).trans (w2_v3 m ρ c)
theorem w3_arg9 : W3 m ρ c (Proc.devRef .tc main_arg9) = (W0 m ρ c (Proc.devRef .tc main_arg9)) :=
  (show W3 m ρ c (Proc.devRef .tc main_arg9) = W2 m ρ c (Proc.devRef .tc main_arg9) by not_written hostOps1).trans (w2_arg9 m ρ c)
theorem w3_arg11 : W3 m ρ c (Proc.devRef .tc main_arg11) = (W0 m ρ c (Proc.devRef .tc main_arg11)) :=
  (show W3 m ρ c (Proc.devRef .tc main_arg11) = W2 m ρ c (Proc.devRef .tc main_arg11) by not_written hostOps1).trans (w2_arg11 m ρ c)
theorem w3_arg16 : W3 m ρ c (Proc.devRef .tc main_arg16) = (W0 m ρ c (Proc.devRef .tc main_arg16)) :=
  (show W3 m ρ c (Proc.devRef .tc main_arg16) = W2 m ρ c (Proc.devRef .tc main_arg16) by not_written hostOps1).trans (w2_arg16 m ρ c)
theorem w3_arg17 : W3 m ρ c (Proc.devRef .tc main_arg17) = (W0 m ρ c (Proc.devRef .tc main_arg17)) :=
  (show W3 m ρ c (Proc.devRef .tc main_arg17) = W2 m ρ c (Proc.devRef .tc main_arg17) by not_written hostOps1).trans (w2_arg17 m ρ c)
theorem w3_arg18 : W3 m ρ c (Proc.devRef .tc main_arg18) = (W0 m ρ c (Proc.devRef .tc main_arg18)) :=
  (show W3 m ρ c (Proc.devRef .tc main_arg18) = W2 m ρ c (Proc.devRef .tc main_arg18) by not_written hostOps1).trans (w2_arg18 m ρ c)

theorem w4_v44_0 : W4 m ρ c (Proc.devRef .tc main_v44_0) = H2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  refine (W4_arr m ρ c 11).trans ((KReg1.finalH (V3 m ρ) c).trans ?_)
  unfold KReg1.resultH H2
  rw [v3_v38, v3_v28, v3_v12, v3_v39, v3_v40, v3_v41, v3_v42, v3_v43]
  rw [show V3 m ρ c main_arg9 = (W0 m ρ c (Proc.devRef .tc main_arg9)) from w3_arg9 m ρ c, show V3 m ρ c main_arg11 = (W0 m ρ c (Proc.devRef .tc main_arg11)) from w3_arg11 m ρ c]

theorem w4_v44_1 : W4 m ρ c (Proc.devRef .tc main_v44_1) = Y3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) := by
  refine (W4_arr m ρ c 12).trans ((KReg1.finalY (V3 m ρ) c).trans ?_)
  unfold KReg1.resultY KReg1.resultH Y3 H2
  rw [v3_v38, v3_v28, v3_v12, v3_v39, v3_v40, v3_v41, v3_v42, v3_v43]
  rw [show V3 m ρ c main_arg9 = (W0 m ρ c (Proc.devRef .tc main_arg9)) from w3_arg9 m ρ c, show V3 m ρ c main_arg11 = (W0 m ρ c (Proc.devRef .tc main_arg11)) from w3_arg11 m ρ c,
    show V3 m ρ c main_arg16 = (W0 m ρ c (Proc.devRef .tc main_arg16)) from w3_arg16 m ρ c]

/-! ### The third stretch and the third region -/

theorem w4_v1 : W4 m ρ c (Proc.devRef .tc main_v1) = srcList (W0 m ρ c (Proc.devRef .tc main_arg1)) :=
  (W4_of_ne m ρ c main_v1 (by decide)).trans (w3_v1 m ρ c)
theorem w4_v3 : W4 m ρ c (Proc.devRef .tc main_v3) = dstList (W0 m ρ c (Proc.devRef .tc main_arg1)) :=
  (W4_of_ne m ρ c main_v3 (by decide)).trans (w3_v3 m ρ c)
theorem w4_v12 : W4 m ρ c (Proc.devRef .tc main_v12) = degInv (dI (W0 m ρ c (Proc.devRef .tc main_arg1))) :=
  (W4_arr m ρ c 2).trans ((((dat1 (V3 m ρ) c).arrAt_in 2 rfl _).trans (A_eq1 (V3 m ρ) c 2)).trans (v3_v12 m ρ c))
theorem w4_arg17 : W4 m ρ c (Proc.devRef .tc main_arg17) = (W0 m ρ c (Proc.devRef .tc main_arg17)) :=
  (W4_of_ne m ρ c main_arg17 (by decide)).trans (w3_arg17 m ρ c)
theorem w4_arg18 : W4 m ρ c (Proc.devRef .tc main_arg18) = (W0 m ρ c (Proc.devRef .tc main_arg18)) :=
  (W4_of_ne m ρ c main_arg18 (by decide)).trans (w3_arg18 m ρ c)

theorem v5_v54 : V5 m ρ c main_v54 = agg64 (sI (W0 m ρ c (Proc.devRef .tc main_arg1))) (dI (W0 m ρ c (Proc.devRef .tc main_arg1))) (Y3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16))) := by
  have e : V5 m ρ c main_v54 = agg64 (srcCol (W4 m ρ c (Proc.devRef .tc main_v1))) (dstCol (W4 m ρ c (Proc.devRef .tc main_v3)))
      (W4 m ρ c (Proc.devRef .tc main_v44_1)) := by
    show StableHlo.after hostOps2 (W4 m ρ c) (Proc.devRef .tc main_v54) = _
    after_results_simp; rfl
  rw [e, w4_v1, w4_v3, w4_v44_1]
theorem v5_v55 : V5 m ρ c main_v55 = rowVec64 (W0 m ρ c (Proc.devRef .tc main_arg17)) := by
  have e : V5 m ρ c main_v55 = rowVec64 (W4 m ρ c (Proc.devRef .tc main_arg17)) := by
    show StableHlo.after hostOps2 (W4 m ρ c) (Proc.devRef .tc main_v55) = _
    after_results_simp; rfl
  rw [e, w4_arg17]
theorem v5_v44_0 : V5 m ρ c main_v44_0 = H2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) :=
  (show W5 m ρ c (Proc.devRef .tc main_v44_0) = W4 m ρ c (Proc.devRef .tc main_v44_0) by not_written hostOps2).trans (w4_v44_0 m ρ c)
theorem v5_v12 : V5 m ρ c main_v12 = degInv (dI (W0 m ρ c (Proc.devRef .tc main_arg1))) :=
  (show W5 m ρ c (Proc.devRef .tc main_v12) = W4 m ρ c (Proc.devRef .tc main_v12) by not_written hostOps2).trans (w4_v12 m ρ c)
theorem v5_arg18 : V5 m ρ c main_arg18 = (W0 m ρ c (Proc.devRef .tc main_arg18)) :=
  (show W5 m ρ c (Proc.devRef .tc main_arg18) = W4 m ρ c (Proc.devRef .tc main_arg18) by not_written hostOps2).trans (w4_arg18 m ρ c)

/-- The result buffer's contents at the end of the fold. -/
theorem w6_v56 : W6 m ρ c (Proc.devRef .tc main_v56) = OUT (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) := by
  refine (W6_arr m ρ c 5).trans ((KReg2.final (V5 m ρ) c).trans ?_)
  unfold KReg2.result OUT
  rw [v5_v54, v5_v44_0, v5_v12, v5_arg18, v5_v55]

/-! ## The run, read -/

/-- Every weakly fair execution of the program terminates without a fault, with the result array at the program's
    function of the launch contents of the arguments, and the arguments unchanged. -/
theorem run : θ_run defs (onTc (τ := τ) (main (F := Ideal))) ⟨m, fun _ => 0, ρ⟩ (fun r => ∀ c : Dev nD,
      r.2.mem ((c.tc : Thread nD τ).loc main_v56) = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (w6_v56 m ρ c), (h c).2⟩) (KRun.run (F := Ideal) m ρ)

end Cert.Sage.KVal

end
-- ==== Proof.Law.lean ====
/-
  The two algebraic laws behind the equivalence, over the extended reals.

  First law: multiplying by the reciprocal `1 / d` is dividing by `d` (for `d ≠ 0`), and addition on the extended
  reals is commutative and associative, so the bias may be added before or after the second dot product.

  Second law: for nonnegative entries (possibly `⊤`), an arbitrary weight column and a degree `d ≥ 1`, applying the
  weight column before summing over the neighbours and then scaling by `d⁻¹` equals scaling the summed rows by
  `d⁻¹` and applying the weight column afterwards. Distributivity is used only in the two forms valid on the
  extended reals: `(a + b) * w = a * w + b * w` for `0 ≤ a`, `0 ≤ b`, and `(x + y) * c = x * c + y * c` for
  `0 ≤ c`, `c ≠ ⊤`.
-/
import proofs.«136812_j29686813950021_2_alg».proof.Proof.Spec

noncomputable section

namespace Cert.Sage

open Idealize.ShloMosaic

/-- Off zero, division is the product with the inverse. -/
private theorem div_eq_mul_inv {x d : EReal} (hd : d ≠ 0) : Ideal.div x d = x * d⁻¹ := by
  rw [Ideal.div, if_neg hd]

/-- A finite sum of nonnegative extended reals times any extended real distributes. -/
private theorem sum_mul_of_nonneg {ι : Type} (s : Finset ι) (a : ι → EReal) (ha : ∀ i, 0 ≤ a i) (w : EReal) :
    (∑ i ∈ s, a i) * w = ∑ i ∈ s, a i * w := by
  classical
  induction s using Finset.induction_on with
  | empty => simp
  | insert i s hi ih =>
    rw [Finset.sum_insert hi, Finset.sum_insert hi,
      EReal.right_distrib_of_nonneg (ha i) (Finset.sum_nonneg fun j _ => ha j), ih]

/-- A finite sum of arbitrary extended reals times a nonnegative finite factor distributes. -/
private theorem sum_mul_of_nonneg_of_ne_top {ι : Type} (s : Finset ι) (x : ι → EReal) {c : EReal}
    (hc : 0 ≤ c) (hc' : c ≠ ⊤) : (∑ i ∈ s, x i) * c = ∑ i ∈ s, x i * c := by
  classical
  induction s using Finset.induction_on with
  | empty => simp
  | insert i s hi ih =>
    rw [Finset.sum_insert hi, Finset.sum_insert hi,
      EReal.right_distrib_of_nonneg_of_ne_top hc hc', ih]

/-- Weights before the neighbour sum, then the scale, equals the scale on the summed rows, then the weights. -/
private theorem sum_dot_mul {ι κ : Type} [Fintype κ] (E : Finset ι) (a : ι → κ → EReal)
    (ha : ∀ i k, 0 ≤ a i k) (w : κ → EReal) {c : EReal} (hc : 0 ≤ c) (hc' : c ≠ ⊤) :
    (∑ e ∈ E, ∑ k, a e k * w k) * c = ∑ k, ((∑ e ∈ E, a e k) * c) * w k := by
  rw [Finset.sum_comm, sum_mul_of_nonneg_of_ne_top _ _ hc hc']
  refine Finset.sum_congr rfl fun k _ => ?_
  rw [← sum_mul_of_nonneg E (fun e => a e k) (fun e => ha e k), mul_right_comm]

theorem layerK_eq_layerR (ar xr wl wr : Fin 128 → EReal) (d bl g be rm rv : EReal) (hd : d ≠ 0) :
    layerK ar xr wl wr (Ideal.div 1 d) bl g be rm rv = layerR ar xr wl wr d bl g be rm rv := by
  have hs : Ideal.div 1 d = d⁻¹ := by rw [div_eq_mul_inv hd, one_mul]
  have hk : (fun k => ar k * Ideal.div 1 d) = (fun k => Ideal.div (ar k) d) := by
    funext k
    rw [hs, div_eq_mul_inv hd]
  unfold layerK layerR
  rw [hk, add_right_comm]

theorem finalK_eq_finalR (dst : Fin 600000 → ℤ) (src : Fin 600000 → Fin 100000) (h : Fin 100000 → Fin 128 → EReal)
    (hh : ∀ m k, 0 ≤ h m k) (n : Fin 100000) (hr wl wr : Fin 128 → EReal) (d bl : EReal) (hd : 1 ≤ d) :
    finalK hr wr (0 + segSum dst n (fun e => dot128 (h (src e)) wl)) (Ideal.div 1 d) bl
      = finalR (fun k => 0 + segSum dst n (fun e => h (src e) k)) hr wl wr d bl := by
  have hd0 : d ≠ 0 := (zero_lt_one.trans_le hd).ne'
  have hc : 0 ≤ d⁻¹ := EReal.inv_nonneg_of_nonneg (zero_le_one.trans hd)
  have hc' : d⁻¹ ≠ ⊤ := (EReal.inv_lt_top d).ne
  have hs : Ideal.div 1 d = d⁻¹ := by rw [div_eq_mul_inv hd0, one_mul]
  have key : (0 + segSum dst n (fun e => dot128 (h (src e)) wl)) * Ideal.div 1 d
      = dot128 (fun k => Ideal.div (0 + segSum dst n (fun e => h (src e) k)) d) wl := by
    unfold segSum dot128
    simp only [zero_add, hs, div_eq_mul_inv hd0]
    exact sum_dot_mul _ (fun e k => h (src e) k) (fun e k => hh (src e) k) wl hc hc'
  unfold finalK finalR
  rw [key, add_comm (dot128 hr wr), add_right_comm]

end Cert.Sage

end
-- ==== Proof.SegSum.lean ====
/-
  A row gather and an accumulating row scatter, read at one index, for node features of any width C.

  The gather takes, for every edge, the feature row of the edge's source node: result element (e, j) is the
  operand's element (r, j) where r is the edge's index read as a signed integer and clamped into [0, 99999].

  The scatter adds every edge's row into the row of the edge's target node: update element (e, j') lands on
  operand element (t, j') where t is the edge's index read as a signed integer, when 0 ≤ t < 100000, and is
  dropped otherwise. So the updates that land on (n, j) are exactly the (e, j) with t = n, and the scattered
  value at (n, j) is the operand's plus the sum over those edges.
-/
import proofs.«136812_j29686813950021_2_alg».proof.Proof.Spec
import Idealize.ShloMosaic.PureOps.Contract

noncomputable section

open scoped BigOperators

namespace Cert.Sage

open Idealize.ShloMosaic Idealize.ShloMosaic.ValueIdx

/-- the dimension numbers of "add each edge's row into its target node's row": update_window_dims [1],
    inserted_window_dims [0], scatter_dims_to_operand_dims [0], index_vector_dim 1 -/
abbrev rowScatter (C : Nat) (wf : ScatterDims.WF ⟨2, ![100000, C]⟩ ⟨2, ![600000, 1]⟩ ⟨2, ![600000, C]⟩ [1] [0] [0] 1) :
    ScatterDims ⟨2, ![100000, C]⟩ ⟨2, ![600000, 1]⟩ ⟨2, ![600000, C]⟩ where
  updateWindowDims := [1]
  insertedWindowDims := [0]
  scatterDimsToOperandDims := [0]
  indexVectorDim := 1
  wf := wf

/-- the dimension numbers of "take each edge's source node's row": offset_dims [1], collapsed_slice_dims [0],
    start_index_map [0], index_vector_dim 1, slice sizes [1, C] -/
abbrev rowGather (C : Nat)
    (wf : GatherDims.WF ⟨2, ![100000, C]⟩ ⟨2, ![600000, 1]⟩ ⟨2, ![600000, C]⟩ [1] [0] [] [0] [] 1 ![1, C]) :
    GatherDims ⟨2, ![100000, C]⟩ ⟨2, ![600000, 1]⟩ ⟨2, ![600000, C]⟩ where
  offsetDims := [1]
  collapsedSliceDims := [0]
  operandBatchingDims := []
  startIndicesBatchingDims := []
  startIndexMap := [0]
  indexVectorDim := 1
  sliceSizes := ![1, C]
  wf := wf

/-- edge e's source node: its index read signed and clamped into [0, 99999] -/
def srcRow {w : Nat} (sI : IVec ⟨2, ![600000, 1]⟩ w) (e : Fin 600000) : Fin 100000 :=
  ⟨min (sI (ix2 e 0)).toInt.toNat 99999, by omega⟩

/-- Axis 1 is not in the one-element list of axis 0. -/
theorem one_not_mem_zero : (1 : Fin 2) ∉ ([0] : List (Fin 2)) := by decide

/-! ## The gather at an index -/

/-- Result element (e, j) of the row gather is the operand's element (source row of e, j). -/
theorem rowGather_apply {α : Type} {w : Nat} (C : Nat)
    (wf : GatherDims.WF ⟨2, ![100000, C]⟩ ⟨2, ![600000, 1]⟩ ⟨2, ![600000, C]⟩ [1] [0] [] [0] [] 1 ![1, C])
    (x : (⟨2, ![100000, C]⟩ : Shape).Idx → α) (sI : IVec ⟨2, ![600000, 1]⟩ w)
    (e : Fin 600000) (j : Fin C) :
    Host.gather (rowGather C wf) x sI (ix2 e j) = x (ix2 (srcRow sI e) j) := by
  unfold Host.gather
  congr 1
  funext a
  refine Fin.ext ?_
  match a with
  | ⟨0, _⟩ =>
    show (rowGather C wf).start (ix2 e j) sI 0 + (rowGather C wf).batchCoord (ix2 e j) 0
      + (rowGather C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather C wf).startIndexMap from List.mem_singleton.mpr rfl)]
    have hsi : (rowGather C wf).siIdx (ix2 e j) ⟨List.idxOf (0 : Fin 2) (rowGather C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather C wf).start (ix2 e j) sI 1 + (rowGather C wf).batchCoord (ix2 e j) 1
      + (rowGather C wf).offCoord (ix2 e j) 1 = j.val
    have hs : (rowGather C wf).start (ix2 e j) sI 1 = 0 := by
      unfold GatherDims.start
      rw [dif_neg (show (1 : Fin 2) ∉ (rowGather C wf).startIndexMap from one_not_mem_zero)]
    have hk : (1 : Fin 2) ∈ (rowGather C wf).sKept :=
      (GatherDims.mem_sKept _ _).mpr ⟨one_not_mem_zero, List.not_mem_nil⟩
    rw [hs, GatherDims.batchCoord_eq_zero _ _ _ List.not_mem_nil]
    unfold GatherDims.offCoord
    rw [dif_pos hk]
    simp only [Nat.zero_add]
    rfl

/-! ## The scatter at an index -/

/-- Axis 0 is not among the axes kept when axis 0 is the inserted one … -/
theorem zero_not_mem_kept : (0 : Fin 2) ∉ (List.finRange 2).filter (· ∉ ([0] : List (Fin 2))) := by decide
/-- … and axis 1 is. -/
theorem one_mem_kept : (1 : Fin 2) ∈ (List.finRange 2).filter (· ∉ ([0] : List (Fin 2))) := by decide

section Scatter
variable {w : Nat} (C : Nat)
  (wf : ScatterDims.WF ⟨2, ![100000, C]⟩ ⟨2, ![600000, 1]⟩ ⟨2, ![600000, C]⟩ [1] [0] [0] 1)
  (dI : IVec ⟨2, ![600000, 1]⟩ w) (e : Fin 600000) (j' : Fin C)

/-- On the node axis the window of update element (e, j') starts at edge e's index, read signed … -/
theorem rowScatter_start0 : (rowScatter C wf).start (ix2 e j') dI 0 = (dI (ix2 e 0)).toInt := by
  unfold ScatterDims.start
  rw [dif_pos (show (0 : Fin 2) ∈ (rowScatter C wf).scatterDimsToOperandDims from List.mem_singleton.mpr rfl)]
  have hsi : (rowScatter C wf).siIdx (ix2 e j') ⟨List.idxOf (0 : Fin 2) (rowScatter C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start1 : (rowScatter C wf).start (ix2 e j') dI 1 = 0 := by
  unfold ScatterDims.start
  rw [dif_neg (show (1 : Fin 2) ∉ (rowScatter C wf).scatterDimsToOperandDims from one_not_mem_zero)]

/-- The window coordinate of update element (e, j') is 0 on the node axis … -/
theorem rowScatter_window0 : (rowScatter C wf).window (ix2 e j') 0 = 0 := by
  unfold ScatterDims.window
  rw [dif_neg (show (0 : Fin 2) ∉ (rowScatter C wf).sKept from zero_not_mem_kept)]

/-- … and j' on the feature axis. -/
theorem rowScatter_window1 : (rowScatter C wf).window (ix2 e j') 1 = j'.val := by
  unfold ScatterDims.window
  rw [dif_pos (show (1 : Fin 2) ∈ (rowScatter C wf).sKept from one_mem_kept)]
  rfl

/-- Update element (e, j') lands on operand element (n, j) exactly when edge e's index, read signed, is n and
    j' is j. -/
theorem rowScatter_lands (n : Fin 100000) (j : Fin C) :
    (rowScatter C wf).resultIdx? (ix2 e j') dI = some (ix2 n j)
      ↔ (dI (ix2 e 0)).toInt = (n.val : ℤ) ∧ j' = j := by
  unfold ScatterDims.resultIdx?
  constructor
  · intro h
    split at h
    · rename_i hin
      have hf := Option.some.inj h
      have h0 : ((rowScatter C wf).start (ix2 e j') dI 0 + ((rowScatter C wf).window (ix2 e j') 0 : ℕ)).toNat = n.val :=
        congrArg Fin.val (congrFun hf 0)
      have h1 : ((rowScatter C wf).start (ix2 e j') dI 1 + ((rowScatter C wf).window (ix2 e j') 1 : ℕ)).toNat = j.val :=
        congrArg Fin.val (congrFun hf 1)
      have hin0 : 0 ≤ (rowScatter C wf).start (ix2 e j') dI 0 + ((rowScatter C wf).window (ix2 e j') 0 : ℕ) := (hin 0).1
      rw [rowScatter_start0, rowScatter_window0] at h0 hin0
      rw [rowScatter_start1, rowScatter_window1] at h1
      exact ⟨by omega, Fin.ext (by omega)⟩
    · exact absurd h (by simp)
  · rintro ⟨ht, rfl⟩
    have hin : ∀ a : Fin 2, 0 ≤ (rowScatter C wf).start (ix2 e j') dI a + ((rowScatter C wf).window (ix2 e j') a : ℕ)
        ∧ (rowScatter C wf).start (ix2 e j') dI a + ((rowScatter C wf).window (ix2 e j') a : ℕ)
          < (((⟨2, ![100000, C]⟩ : Shape).size a : ℕ) : ℤ) := by
      intro a
      match a with
      | ⟨0, _⟩ =>
        show 0 ≤ (rowScatter C wf).start (ix2 e j') dI 0 + ((rowScatter C wf).window (ix2 e j') 0 : ℕ)
          ∧ (rowScatter C wf).start (ix2 e j') dI 0 + ((rowScatter C wf).window (ix2 e j') 0 : ℕ) < ((100000 : ℕ) : ℤ)
        rw [rowScatter_start0, rowScatter_window0, ht]
        have := n.isLt
        omega
      | ⟨1, _⟩ =>
        show 0 ≤ (rowScatter C wf).start (ix2 e j') dI 1 + ((rowScatter C wf).window (ix2 e j') 1 : ℕ)
          ∧ (rowScatter C wf).start (ix2 e j') dI 1 + ((rowScatter C wf).window (ix2 e j') 1 : ℕ) < ((C : ℕ) : ℤ)
        rw [rowScatter_start1, rowScatter_window1]
        have := j'.isLt
        omega
    split
    · congr 1
      funext a
      refine Fin.ext ?_
      match a with
      | ⟨0, _⟩ =>
        show ((rowScatter C wf).start (ix2 e j') dI 0 + ((rowScatter C wf).window (ix2 e j') 0 : ℕ)).toNat = n.val
        rw [rowScatter_start0, rowScatter_window0, ht]
        omega
      | ⟨1, _⟩ =>
        show ((rowScatter C wf).start (ix2 e j') dI 1 + ((rowScatter C wf).window (ix2 e j') 1 : ℕ)).toNat = j'.val
        rw [rowScatter_start1, rowScatter_window1]
        omega
    · rename_i hn
      exact absurd hin hn

end Scatter

/-- Element (n, j) of the accumulating row scatter is the operand's element plus the sum, over the edges whose
    target is n, of the update's element (e, j). -/
theorem rowScatter_apply {w : Nat} (C : Nat)
    (wf : ScatterDims.WF ⟨2, ![100000, C]⟩ ⟨2, ![600000, 1]⟩ ⟨2, ![600000, C]⟩ [1] [0] [0] 1)
    (z : (⟨2, ![100000, C]⟩ : Shape).Idx → EReal) (dI : IVec ⟨2, ![600000, 1]⟩ w)
    (upd : (⟨2, ![600000, C]⟩ : Shape).Idx → EReal) (n : Fin 100000) (j : Fin C) :
    Host.scatterAdd (F := Ideal) (φ := .f32) (rowScatter C wf) z dI upd (ix2 n j)
      = z (ix2 n j) + segSum (fun e => (dI (ix2 e 0)).toInt) n (fun e => upd (ix2 e j)) := by
  show Ideal.hostScatterAdd (rowScatter C wf) z dI upd (ix2 n j) = _
  unfold Ideal.hostScatterAdd segSum
  refine congrArg (fun t => z (ix2 n j) + t) ?_
  rw [Finset.sum_filter, Finset.sum_filter, sum_idx2]
  refine Finset.sum_congr rfl (fun e _ => ?_)
  simp only [rowScatter_lands]
  by_cases h : (dI (ix2 e 0)).toInt = (n.val : ℤ)
  · simp [h]
  · simp [h]

end Cert.Sage

end
-- ==== Proof.Bridge3.lean ====
/-
  The last layer, kernel form against reference form, at one output entry (n, j).

  Both neighbour sums are sums over the edges into node n of the source node's row of the hidden array: on one side
  of the row itself (128 features), on the other of the row already multiplied with column j of the neighbour
  weights (one number per edge). With the accumulated arrays starting at zero, the two entries are the two sides of
  the second algebraic law: weights before the neighbour sum and then the reciprocal degree, against the division by
  the degree on the summed rows and then the weights.
-/
import proofs.«136812_j29686813950021_2_alg».proof.Proof.Spec
import proofs.«136812_j29686813950021_2_alg».proof.Proof.SegSum
import proofs.«136812_j29686813950021_2_alg».proof.Proof.Law
import proofs.«136812_j29686813950021_2_alg».proof.Proof.KG

noncomputable section

namespace Cert.Sage

open Cert.KernelIdeal Idealize.ShloMosaic Idealize.ShloMosaic.ValueIdx

/-- Entry (n, j) of the last layer: the pre-multiplied rows gathered, summed into their target nodes and scaled by
    the reciprocal degree give what the plain rows gathered, summed, divided by the degree and then multiplied
    with the weight column give, for nonnegative hidden entries and a degree at least 1. -/
theorem last_eq (wfs128 : ScatterDims.WF ⟨2, ![100000, 128]⟩ ⟨2, ![600000, 1]⟩ ⟨2, ![600000, 128]⟩ [1] [0] [0] 1)
    (wfg128 : GatherDims.WF ⟨2, ![100000, 128]⟩ ⟨2, ![600000, 1]⟩ ⟨2, ![600000, 128]⟩ [1] [0] [] [0] [] 1 ![1, 128])
    (wfs64 : ScatterDims.WF ⟨2, ![100000, 64]⟩ ⟨2, ![600000, 1]⟩ ⟨2, ![600000, 64]⟩ [1] [0] [0] 1)
    (wfg64 : GatherDims.WF ⟨2, ![100000, 64]⟩ ⟨2, ![600000, 1]⟩ ⟨2, ![600000, 64]⟩ [1] [0] [] [0] [] 1 ![1, 64])
    (dI sI : IVec ⟨2, ![600000, 1]⟩ 32)
    (z128 : (⟨2, ![100000, 128]⟩ : Shape).Idx → EReal) (z64 : (⟨2, ![100000, 64]⟩ : Shape).Idx → EReal)
    (hz128 : ∀ i, z128 i = 0) (hz64 : ∀ i, z64 i = 0)
    (H : (⟨2, ![100000, 128]⟩ : Shape).Idx → EReal) (hH : ∀ i, 0 ≤ H i)
    (W3 WR : (⟨2, ![128, 64]⟩ : Shape).Idx → EReal) (d bl : EReal) (hd : 1 ≤ d) (n : Fin 100000) (j : Fin 64) :
    finalK (fun k => H (ix2 n k)) (fun k => WR (ix2 k j))
        (Host.scatterAdd (F := Ideal) (φ := .f32) (rowScatter 64 wfs64) z64 dI
          (Host.gather (rowGather 64 wfg64) (KG.pre3 H W3) sI) (ix2 n j))
        (Ideal.div 1 d) bl
      = finalR (fun k => Host.scatterAdd (F := Ideal) (φ := .f32) (rowScatter 128 wfs128) z128 dI
            (Host.gather (rowGather 128 wfg128) H sI) (ix2 n k))
          (fun k => H (ix2 n k)) (fun k => W3 (ix2 k j)) (fun k => WR (ix2 k j)) d bl := by
  -- the pre-multiplied neighbour sum at (n, j): a sum over the edges into n of a dot product
  have hL : Host.scatterAdd (F := Ideal) (φ := .f32) (rowScatter 64 wfs64) z64 dI
        (Host.gather (rowGather 64 wfg64) (KG.pre3 H W3) sI) (ix2 n j)
      = 0 + segSum (fun e => (dI (ix2 e 0)).toInt) n
          (fun e => dot128 (fun k => H (ix2 (srcRow sI e) k)) (fun k => W3 (ix2 k j))) := by
    rw [rowScatter_apply, hz64]
    simp only [rowGather_apply, KG.pre3_apply]
  -- row n of the plain neighbour sum: feature by feature, a sum over the edges into n
  have hR : (fun k : Fin 128 => Host.scatterAdd (F := Ideal) (φ := .f32) (rowScatter 128 wfs128) z128 dI
        (Host.gather (rowGather 128 wfg128) H sI) (ix2 n k))
      = fun k => 0 + segSum (fun e => (dI (ix2 e 0)).toInt) n (fun e => H (ix2 (srcRow sI e) k)) := by
    funext k
    rw [rowScatter_apply, hz128]
    simp only [rowGather_apply]
  rw [hL, hR]
  exact finalK_eq_finalR (fun e => (dI (ix2 e 0)).toInt) (srcRow sI) (fun m k => H (ix2 m k)) (fun m k => hH _) n
    (fun k => H (ix2 n k)) (fun k => W3 (ix2 k j)) (fun k => WR (ix2 k j)) d bl hd

end Cert.Sage

end
-- ==== Proof.Bridge12.lean ====
/-
  The kernel function's array terms read at an index, and a hidden layer's entry as the reference's layer.

  A parameter vector reshaped to a one-row matrix reads, at `(0, j)`, the vector at `j`. The degree is a maximum with
  the constant one, so it is at least one; its reciprocal column reads, at `(n, 0)`, the quotient `1 / deg n`. With
  these, entry `(n, j)` of a hidden layer (neighbour sum scaled by the reciprocal degree) equals the layer that
  divides the neighbour sum by the degree, by the first algebraic law, since a degree that is at least one is not zero.
-/
import proofs.«136812_j29686813950021_2_alg».proof.Proof.Spec
import proofs.«136812_j29686813950021_2_alg».proof.Proof.Law
import proofs.«136812_j29686813950021_2_alg».proof.Proof.KG
import proofs.«136812_j29686813950021_2_alg».proof.Proof.KFun
import Idealize.ShloMosaic.Lib.IdealHost
import Idealize.ShloMosaic.Lib.ValueLayout

noncomputable section

namespace Cert.Sage

open Cert.KernelIdeal Idealize.ShloMosaic Idealize.ShloMosaic.ValueIdx Cert.Sage.KFun

/-- An `[a]` array cast to `[a, 1]` reads, at `(i, u)`, the operand at `i`, whatever the unit coordinate `u`:
    both indices have row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowVec_apply (x : (⟨S128, .f32⟩ : BufTy).Contents (Elt Ideal)) (j : Fin 128) :
    rowVec x (ix2 0 j) = x (ix1 j) :=
  shapeCast_a_1a_apply x _ 0 j

theorem rowVec64_apply (x : (⟨S64, .f32⟩ : BufTy).Contents (Elt Ideal)) (j : Fin 64) :
    rowVec64 x (ix2 0 j) = x (ix1 j) :=
  shapeCast_a_1a_apply x _ 0 j

/-- The degree is a maximum with the constant one. -/
theorem deg_ge_one (dI : (⟨S600000x1, .i32⟩ : BufTy).Contents (Elt Ideal)) (n : Fin 100000) :
    1 ≤ deg dI (ix1 n) := by
  unfold deg
  rw [maximumf_apply, broadcastInDim_scalar_apply, constant_apply, Ideal.ofBits_one_f32]
  exact le_max_right _ _

/-- The reciprocal degree column at `(n, 0)` is the quotient of one by the degree at `n`. -/
theorem degInv_apply (dI : (⟨S600000x1, .i32⟩ : BufTy).Contents (Elt Ideal)) (n : Fin 100000) :
    degInv dI (ix2 n 0) = Ideal.div 1 (deg dI (ix1 n)) := by
  unfold degInv
  rw [shapeCast_a_a1_apply, hostDivf_apply, broadcastInDim_scalar_apply, constant_apply, Ideal.ofBits_one_f32]

theorem hidden_eq_layerR (A X : S100000x128.Idx → EReal) (dI : (⟨S600000x1, .i32⟩ : BufTy).Contents (Elt Ideal))
    (WL WR : S128x128.Idx → EReal) (bl g be rm rv : (⟨S128, .f32⟩ : BufTy).Contents (Elt Ideal))
    (n : Fin 100000) (j : Fin 128) :
    KG.hidden A X (degInv dI) WL (rowVec bl) WR (rowVec g) (rowVec be) (rowVec rm) (rowVec rv) (ix2 n j)
      = layerR (fun k => A (ix2 n k)) (fun k => X (ix2 n k)) (fun k => WL (ix2 k j)) (fun k => WR (ix2 k j))
          (deg dI (ix1 n)) (bl (ix1 j)) (g (ix1 j)) (be (ix1 j)) (rm (ix1 j)) (rv (ix1 j)) := by
  have hd : deg dI (ix1 n) ≠ 0 := (zero_lt_one.trans_le (deg_ge_one dI n)).ne'
  rw [KG.hidden_apply, degInv_apply]
  simp only [rowVec_apply]
  exact layerK_eq_layerR _ _ _ _ _ _ _ _ _ _ hd

/-- A hidden layer's entries are positive parts. -/
theorem hidden_nonneg (A X : S100000x128.Idx → EReal) (DV : S100000x1.Idx → EReal) (WL : S128x128.Idx → EReal)
    (BL : S1x128.Idx → EReal) (WR : S128x128.Idx → EReal) (G BE RM RV : S1x128.Idx → EReal) (i : S100000x128.Idx) :
    0 ≤ KG.hidden A X DV WL BL WR G BE RM RV i := by
  unfold KG.hidden
  exact layerK_nonneg _ _ _ _ _ _ _ _ _ _

end Cert.Sage

end
-- ==== Proof.Ref.lean ====
/-
  The reference program's three layers, one output entry at a time.

  Each hidden layer's entry for node n and feature j is Spec's layerR of the node's row of summed neighbour
  features, the node's own row, the two weight columns for j and the scalars of j; the last layer's entry is
  finalR. The neighbour sums and the degrees are left as the arrays the program computes; the three layers use the
  same operations of the same two index columns for them.
-/
import proofs.«136812_j29686813950021_2_alg».proof.Proof.Gen.ReferenceIdeal.Read
import proofs.«136812_j29686813950021_2_alg».proof.Proof.Spec

noncomputable section

namespace Cert.Sage.Ref

open Cert.ReferenceIdeal Cert.ReferenceIdeal.Read Idealize.ShloMosaic Idealize.ShloMosaic.ValueIdx

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 x13 x14 x15 : (⟨S128, .f32⟩ : BufTy).Contents (Elt Ideal))
  (x16 : (⟨S128x64, .f32⟩ : BufTy).Contents (Elt Ideal)) (x17 : (⟨S64, .f32⟩ : BufTy).Contents (Elt Ideal))
  (x18 : (⟨S128x64, .f32⟩ : BufTy).Contents (Elt Ideal))

/-! ## Where each operation reads its operands, for the entry (n, j)

A product's left operand is read along row n and its right operand down column j; the degree column, spread along
a row, is read at the row's node; a vector over the features, spread down the nodes, is read at the feature. -/

section indices
variable (n : Fin 100000) (j k : Fin 128) (o : Fin 64)

theorem lrow23 : lidx_main_v23 (ix2 n j) k = ix2 n k :=
  funext fun a => Fin.ext (by match a with | ⟨0, _⟩ => rfl | ⟨1, _⟩ => rfl)
theorem rcol23 : ridx_main_v23 (ix2 n j) k = ix2 k j :=
  funext fun a => Fin.ext (by match a with | ⟨0, _⟩ => rfl | ⟨1, _⟩ => rfl)
theorem lrow27 : lidx_main_v27 (ix2 n j) k = ix2 n k :=
  funext fun a => Fin.ext (by match a with | ⟨0, _⟩ => rfl | ⟨1, _⟩ => rfl)
theorem rcol27 : ridx_main_v27 (ix2 n j) k = ix2 k j :=
  funext fun a => Fin.ext (by match a with | ⟨0, _⟩ => rfl | ⟨1, _⟩ => rfl)
theorem lrow62 : lidx_main_v62 (ix2 n j) k = ix2 n k :=
  funext fun a => Fin.ext (by match a with | ⟨0, _⟩ => rfl | ⟨1, _⟩ => rfl)
theorem rcol62 : ridx_main_v62 (ix2 n j) k = ix2 k j :=
  funext fun a => Fin.ext (by match a with | ⟨0, _⟩ => rfl | ⟨1, _⟩ => rfl)
theorem lrow66 : lidx_main_v66 (ix2 n j) k = ix2 n k :=
  funext fun a => Fin.ext (by match a with | ⟨0, _⟩ => rfl | ⟨1, _⟩ => rfl)
theorem rcol66 : ridx_main_v66 (ix2 n j) k = ix2 k j :=
  funext fun a => Fin.ext (by match a with | ⟨0, _⟩ => rfl | ⟨1, _⟩ => rfl)
theorem lrow101 : lidx_main_v101 (ix2 n o) k = ix2 n k :=
  funext fun a => Fin.ext (by match a with | ⟨0, _⟩ => rfl | ⟨1, _⟩ => rfl)
theorem rcol101 : ridx_main_v101 (ix2 n o) k = ix2 k o :=
  funext fun a => Fin.ext (by match a with | ⟨0, _⟩ => rfl | ⟨1, _⟩ => rfl)
theorem lrow105 : lidx_main_v105 (ix2 n o) k = ix2 n k :=
  funext fun a => Fin.ext (by match a with | ⟨0, _⟩ => rfl | ⟨1, _⟩ => rfl)
theorem rcol105 : ridx_main_v105 (ix2 n o) k = ix2 k o :=
  funext fun a => Fin.ext (by match a with | ⟨0, _⟩ => rfl | ⟨1, _⟩ => rfl)
theorem deg21 : idx_main_v20 (idx_main_v21 (ix2 n k)) = ix1 n :=
  funext fun a => Fin.ext (by match a with | ⟨0, _⟩ => rfl)
theorem deg60 : idx_main_v59 (idx_main_v60 (ix2 n k)) = ix1 n :=
  funext fun a => Fin.ext (by match a with | ⟨0, _⟩ => rfl)
theorem deg99 : idx_main_v98 (idx_main_v99 (ix2 n k)) = ix1 n :=
  funext fun a => Fin.ext (by match a with | ⟨0, _⟩ => rfl)
theorem feat25 : idx_main_v24 (idx_main_v25 (ix2 n j)) = ix1 j :=
  funext fun a => Fin.ext (by match a with | ⟨0, _⟩ => rfl)
theorem feat30 : idx_main_v29 (idx_main_v30 (ix2 n j)) = ix1 j :=
  funext fun a => Fin.ext (by match a with | ⟨0, _⟩ => rfl)
theorem feat37 : idx_main_v36 (idx_main_v37 (ix2 n j)) = ix1 j :=
  funext fun a => Fin.ext (by match a with | ⟨0, _⟩ => rfl)
theorem feat40 : idx_main_v39 (idx_main_v40 (ix2 n j)) = ix1 j :=
  funext fun a => Fin.ext (by match a with | ⟨0, _⟩ => rfl)
theorem feat64 : idx_main_v63 (idx_main_v64 (ix2 n j)) = ix1 j :=
  funext fun a => Fin.ext (by match a with | ⟨0, _⟩ => rfl)
theorem feat69 : idx_main_v68 (idx_main_v69 (ix2 n j)) = ix1 j :=
  funext fun a => Fin.ext (by match a with | ⟨0, _⟩ => rfl)
theorem feat76 : idx_main_v75 (idx_main_v76 (ix2 n j)) = ix1 j :=
  funext fun a => Fin.ext (by match a with | ⟨0, _⟩ => rfl)
theorem feat79 : idx_main_v78 (idx_main_v79 (ix2 n j)) = ix1 j :=
  funext fun a => Fin.ext (by match a with | ⟨0, _⟩ => rfl)
theorem feat103 : idx_main_v102 (idx_main_v103 (ix2 n o)) = ix1 o :=
  funext fun a => Fin.ext (by match a with | ⟨0, _⟩ => rfl)

end indices

/-! ## The mean of the neighbours, entry by entry

The neighbour sum divided by the degree array spread along the row. -/

theorem mean1 (i : S100000x128.Idx) : val_main_v22 (F := Ideal) x0 x1 i
    = Ideal.div (val_main_v13 (F := Ideal) x0 x1 i) (val_main_v21 (F := Ideal) x1 i) :=
  (val_main_v22_apply (F := Ideal) x0 x1 i).trans (Ideal.hostDivf_def _ _)
theorem mean2 (i : S100000x128.Idx) : val_main_v61 (F := Ideal) x0 x1 x2 x3 x4 x5 x6 x7 x8 i
    = Ideal.div (val_main_v52 (F := Ideal) x0 x1 x2 x3 x4 x5 x6 x7 x8 i) (val_main_v60 (F := Ideal) x1 i) :=
  (val_main_v61_apply (F := Ideal) x0 x1 x2 x3 x4 x5 x6 x7 x8 i).trans (Ideal.hostDivf_def _ _)
theorem mean3 (i : S100000x128.Idx) : val_main_v100 (F := Ideal) x0 x1 x2 x3 x4 x5 x6 x7 x8 x9 x10 x11 x12 x13 x14 x15 i
    = Ideal.div (val_main_v91 (F := Ideal) x0 x1 x2 x3 x4 x5 x6 x7 x8 x9 x10 x11 x12 x13 x14 x15 i) (val_main_v99 (F := Ideal) x1 i) :=
  (val_main_v100_apply (F := Ideal) x0 x1 x2 x3 x4 x5 x6 x7 x8 x9 x10 x11 x12 x13 x14 x15 i).trans (Ideal.hostDivf_def _ _)

/-! ## The three layers -/

theorem layer1 (n : Fin 100000) (j : Fin 128) :
    val_main_v42 (F := Ideal) x0 x1 x2 x3 x4 x5 x6 x7 x8 (ix2 n j)
      = layerR (fun k => val_main_v13 (F := Ideal) x0 x1 (ix2 n k)) (fun k => x0 (ix2 n k))
          (fun k => x2 (ix2 k j)) (fun k => x4 (ix2 k j))
          (val_main_v19 (F := Ideal) x1 (ix1 n)) (x3 (ix1 j)) (x5 (ix1 j)) (x6 (ix1 j)) (x7 (ix1 j)) (x8 (ix1 j)) := by
  unfold layerR dot128 eps
  rw [val_main_v42_apply, val_main_v41_apply, val_main_v38_apply, val_main_v31_apply, val_main_v28_apply,
    val_main_v26_apply, val_main_v23_apply, val_main_v25_apply, val_main_v24_apply, val_main_v27_apply,
    val_main_v30_apply, val_main_v29_apply, val_main_v37_apply, val_main_v36_apply, val_main_v35_apply,
    val_main_v34_apply, val_main_v33_apply, val_main_v32_apply, val_main_cst_4_apply, val_main_v40_apply,
    val_main_v39_apply, val_main_call0_v0_apply, val_main_call0_cst_apply]
  simp only [mean1, val_main_v21_apply, val_main_v20_apply, lrow23, lrow27, rcol23, rcol27, deg21,
    feat25, feat30, feat37, feat40, Ideal.ofBits_def, Ideal.addf_def, Ideal.subf_def, Ideal.mulf_def,
    Ideal.maximumf_def, Ideal.hostUnary_rsqrt_def, Ideal.ofBits_zero_f32]

theorem layer2 (n : Fin 100000) (j : Fin 128) :
    val_main_v81 (F := Ideal) x0 x1 x2 x3 x4 x5 x6 x7 x8 x9 x10 x11 x12 x13 x14 x15 (ix2 n j)
      = layerR (fun k => val_main_v52 (F := Ideal) x0 x1 x2 x3 x4 x5 x6 x7 x8 (ix2 n k))
          (fun k => val_main_v42 (F := Ideal) x0 x1 x2 x3 x4 x5 x6 x7 x8 (ix2 n k))
          (fun k => x9 (ix2 k j)) (fun k => x11 (ix2 k j))
          (val_main_v58 (F := Ideal) x1 (ix1 n)) (x10 (ix1 j)) (x12 (ix1 j)) (x13 (ix1 j)) (x14 (ix1 j)) (x15 (ix1 j)) := by
  unfold layerR dot128 eps
  rw [val_main_v81_apply, val_main_v80_apply, val_main_v77_apply, val_main_v70_apply, val_main_v67_apply,
    val_main_v65_apply, val_main_v62_apply, val_main_v64_apply, val_main_v63_apply, val_main_v66_apply,
    val_main_v69_apply, val_main_v68_apply, val_main_v76_apply, val_main_v75_apply, val_main_v74_apply,
    val_main_v73_apply, val_main_v72_apply, val_main_v71_apply, val_main_cst_11_apply, val_main_v79_apply,
    val_main_v78_apply, val_main_call1_v0_apply, val_main_call1_cst_apply]
  simp only [mean2, val_main_v60_apply, val_main_v59_apply, lrow62, lrow66, rcol62, rcol66, deg60,
    feat64, feat69, feat76, feat79, Ideal.ofBits_def, Ideal.addf_def, Ideal.subf_def, Ideal.mulf_def,
    Ideal.maximumf_def, Ideal.hostUnary_rsqrt_def, Ideal.ofBits_zero_f32]

theorem final (n : Fin 100000) (j : Fin 64) :
    val_main_v106 (F := Ideal) x0 x1 x2 x3 x4 x5 x6 x7 x8 x9 x10 x11 x12 x13 x14 x15 x16 x17 x18 (ix2 n j)
      = finalR (fun k => val_main_v91 (F := Ideal) x0 x1 x2 x3 x4 x5 x6 x7 x8 x9 x10 x11 x12 x13 x14 x15 (ix2 n k))
          (fun k => val_main_v81 (F := Ideal) x0 x1 x2 x3 x4 x5 x6 x7 x8 x9 x10 x11 x12 x13 x14 x15 (ix2 n k))
          (fun k => x16 (ix2 k j)) (fun k => x18 (ix2 k j))
          (val_main_v97 (F := Ideal) x1 (ix1 n)) (x17 (ix1 j)) := by
  unfold finalR dot128
  rw [val_main_v106_apply, val_main_v104_apply, val_main_v101_apply, val_main_v103_apply, val_main_v102_apply,
    val_main_v105_apply]
  simp only [mean3, val_main_v99_apply, val_main_v98_apply, lrow101, lrow105, rcol101, rcol105, deg99,
    feat103, Ideal.addf_def]

/-! ## The neighbour sums and the degrees: the same operations of the same index columns in all three layers -/

theorem dst_eq₂ : val_main_v51 (F := Ideal) x1 = val_main_v12 (F := Ideal) x1 := rfl
theorem dst_eq₃ : val_main_v90 (F := Ideal) x1 = val_main_v12 (F := Ideal) x1 := rfl
theorem src_eq₂ : val_main_v48 (F := Ideal) x1 = val_main_v9 (F := Ideal) x1 := rfl
theorem src_eq₃ : val_main_v87 (F := Ideal) x1 = val_main_v9 (F := Ideal) x1 := rfl
theorem deg_eq₂ : val_main_v58 (F := Ideal) x1 = val_main_v19 (F := Ideal) x1 := rfl
theorem deg_eq₃ : val_main_v97 (F := Ideal) x1 = val_main_v19 (F := Ideal) x1 := rfl

/-- The array each sum starts from is zero everywhere. -/
theorem zero_apply₁ (i : S100000x128.Idx) : val_main_v11 (F := Ideal) i = 0 := by
  rw [val_main_v11_apply, val_main_cst_apply]; exact Ideal.ofBits_zero_f32
theorem zero_apply₂ (i : S100000x128.Idx) : val_main_v50 (F := Ideal) i = 0 := by
  rw [val_main_v50_apply, val_main_cst_7_apply]; exact Ideal.ofBits_zero_f32
theorem zero_apply₃ (i : S100000x128.Idx) : val_main_v89 (F := Ideal) i = 0 := by
  rw [val_main_v89_apply, val_main_cst_14_apply]; exact Ideal.ofBits_zero_f32

end Cert.Sage.Ref

end
-- ==== Proof.Bridge.lean ====
/-
  The kernel program's function of the argument arrays is the reference's.

  The two programs build the same index columns and the same in-degrees by the same host operations. In the two hidden
  layers they differ only in how the neighbour mean is formed (a division by the degree against a product with its
  reciprocal) and in the order of three additions; in the last layer also in whether the neighbour weights meet the
  rows before or after the sum over neighbours, which agree because the hidden entries are nonnegative (a positive
  part) and the reciprocal degree is a nonnegative real.
-/
import proofs.«136812_j29686813950021_2_alg».proof.Proof.Spec
import proofs.«136812_j29686813950021_2_alg».proof.Proof.KG
import proofs.«136812_j29686813950021_2_alg».proof.Proof.KFun
import proofs.«136812_j29686813950021_2_alg».proof.Proof.Law
import proofs.«136812_j29686813950021_2_alg».proof.Proof.SegSum
import proofs.«136812_j29686813950021_2_alg».proof.Proof.Bridge3
import proofs.«136812_j29686813950021_2_alg».proof.Proof.Bridge12
import proofs.«136812_j29686813950021_2_alg».proof.Proof.Ref

noncomputable section

namespace Cert.Sage.Bridge

open Cert.KernelIdeal Cert.KernelIdeal.Gen Idealize.ShloMosaic Idealize.ShloMosaic.ValueIdx Cert.Sage.KFun

variable (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S128x64, .f32⟩ : BufTy).Contents (Elt Ideal))

/-! ## The shared host operations -/

theorem src_eq : Cert.ReferenceIdeal.Read.val_main_v9 (F := Ideal) x1 = sI x1 := rfl
theorem dst_eq : Cert.ReferenceIdeal.Read.val_main_v12 (F := Ideal) x1 = dI x1 := rfl
theorem deg_eq₁ : Cert.ReferenceIdeal.Read.val_main_v19 (F := Ideal) x1 = deg (dI x1) := rfl
theorem deg_eq₂ : Cert.ReferenceIdeal.Read.val_main_v58 (F := Ideal) x1 = deg (dI x1) := rfl
theorem deg_eq₃ : Cert.ReferenceIdeal.Read.val_main_v97 (F := Ideal) x1 = deg (dI x1) := rfl
theorem agg_eq₁ : Cert.ReferenceIdeal.Read.val_main_v13 (F := Ideal) x0 x1 = agg128 (sI x1) (dI x1) x0 := rfl
theorem agg_eq₂ : Cert.ReferenceIdeal.Read.val_main_v52 (F := Ideal) x0 x1 x2 x3 x4 x5 x6 x7 x8 = agg128 (sI x1) (dI x1) (Cert.ReferenceIdeal.Read.val_main_v42 (F := Ideal) x0 x1 x2 x3 x4 x5 x6 x7 x8) := rfl
theorem agg_eq₃ : Cert.ReferenceIdeal.Read.val_main_v91 (F := Ideal) x0 x1 x2 x3 x4 x5 x6 x7 x8 x9 x10 x11 x12 x13 x14 x15 = agg128 (sI x1) (dI x1) (Cert.ReferenceIdeal.Read.val_main_v81 (F := Ideal) x0 x1 x2 x3 x4 x5 x6 x7 x8 x9 x10 x11 x12 x13 x14 x15) := rfl

theorem zero128_apply (i : S100000x128.Idx) : zero128 i = 0 :=
  (show zero128 i = Ideal.ofBits .f32 0x00000000#32 from rfl).trans Ideal.ofBits_zero_f32
theorem zero64_apply (i : S100000x64.Idx) : zero64 i = 0 :=
  (show zero64 i = Ideal.ofBits .f32 0x00000000#32 from rfl).trans Ideal.ofBits_zero_f32

/-! ## The hidden layers -/

theorem h1_eq : H1 x0 x1 x2 x3 x4 x5 x6 x7 x8 = Cert.ReferenceIdeal.Read.val_main_v42 (F := Ideal) x0 x1 x2 x3 x4 x5 x6 x7 x8 := by
  funext i
  obtain ⟨n, j, rfl⟩ : ∃ (n : Fin 100000) (j : Fin 128), i = ix2 n j := ⟨i 0, i 1, eq_ix2 i⟩
  unfold H1
  rw [Ref.layer1 x0 x1 x2 x3 x4 x5 x6 x7 x8 n j, agg_eq₁, deg_eq₁]
  exact hidden_eq_layerR _ _ _ _ _ _ _ _ _ _ n j

theorem h2_eq : H2 x0 x1 x2 x3 x4 x5 x6 x7 x8 x9 x10 x11 x12 x13 x14 x15 = Cert.ReferenceIdeal.Read.val_main_v81 (F := Ideal) x0 x1 x2 x3 x4 x5 x6 x7 x8 x9 x10 x11 x12 x13 x14 x15 := by
  funext i
  obtain ⟨n, j, rfl⟩ : ∃ (n : Fin 100000) (j : Fin 128), i = ix2 n j := ⟨i 0, i 1, eq_ix2 i⟩
  unfold H2
  rw [h1_eq, Ref.layer2 x0 x1 x2 x3 x4 x5 x6 x7 x8 x9 x10 x11 x12 x13 x14 x15 n j, agg_eq₂, deg_eq₂]
  exact hidden_eq_layerR _ _ _ _ _ _ _ _ _ _ n j

/-! ## The last layer -/

theorem out_eq : OUT x0 x1 x2 x3 x4 x5 x6 x7 x8 x9 x10 x11 x12 x13 x14 x15 x16 x17 x18 = Cert.ReferenceIdeal.Read.val_main_v106 (F := Ideal) x0 x1 x2 x3 x4 x5 x6 x7 x8 x9 x10 x11 x12 x13 x14 x15 x16 x17 x18 := by
  funext i
  obtain ⟨n, j, rfl⟩ : ∃ (n : Fin 100000) (j : Fin 64), i = ix2 n j := ⟨i 0, i 1, eq_ix2 i⟩
  unfold OUT Y3
  rw [KG.last_apply, rowVec64_apply, degInv_apply, Ref.final x0 x1 x2 x3 x4 x5 x6 x7 x8 x9 x10 x11 x12 x13 x14 x15 x16 x17 x18 n j, agg_eq₃, deg_eq₃, ← h2_eq]
  have hH : ∀ i, 0 ≤ H2 x0 x1 x2 x3 x4 x5 x6 x7 x8 x9 x10 x11 x12 x13 x14 x15 i := fun i => by unfold H2; exact hidden_nonneg _ _ _ _ _ _ _ _ _ _ i
  exact last_eq scatter_S100000x128_S600000x1_S600000x128_1_0_0_1.wf gather_S100000x128_S600000x1_S600000x128_1_0_n_n_0_1_1128.wf
    scatter_S100000x64_S600000x1_S600000x64_1_0_0_1.wf gather_S100000x64_S600000x1_S600000x64_1_0_n_n_0_1_164.wf
    (dI x1) (sI x1) zero128 zero64 zero128_apply zero64_apply (H2 x0 x1 x2 x3 x4 x5 x6 x7 x8 x9 x10 x11 x12 x13 x14 x15) hH x16 x18 (deg (dI x1) (ix1 n)) (x17 (ix1 j))
    (deg_ge_one (dI x1) n) n j

end Cert.Sage.Bridge

end
-- ==== Proof.lean ====
/-
  Two programs for a three-layer graph network with mean aggregation over in-neighbours are equal at exact arithmetic.

  Both take node features, an edge list and the layers' parameters. Each layer replaces a node's features by
  `mean of its in-neighbours' features · Wl + b + its own features · Wr`; the two hidden layers then normalise with
  fixed statistics and take the positive part. One program divides each neighbour sum by the in-degree; the other
  multiplies by a reciprocal computed once, adds the bias last, and in the final layer applies `Wl` to every node's
  hidden row before summing over neighbours. On extended reals these agree: a quotient by a nonzero `d` is the product
  with `1 / d`, addition is commutative and associative, and the final layer's exchange of product and sum holds
  because hidden entries are nonnegative and the reciprocal degree is a nonnegative real.

  The kernel program's run and its result array as a function of the arguments are in `KVal` (over the regions'
  whole-array functions `KG`, the program's function `KFun`), the reference's layers read at an index in `Ref`, the
  two algebraic laws in `Law`, the neighbour sums as sums over edges in `SegSum`, and the equality of the two
  functions in `Bridge`.
-/
import proofs.«136812_j29686813950021_2_alg».proof.Defs
import proofs.«136812_j29686813950021_2_alg».proof.Proof.Gen.Kernel
import proofs.«136812_j29686813950021_2_alg».proof.Proof.Gen.Kernel.Skeleton
import proofs.«136812_j29686813950021_2_alg».proof.Proof.Gen.Kernel.Launch
import proofs.«136812_j29686813950021_2_alg».proof.Proof.Gen.Kernel.Points
import proofs.«136812_j29686813950021_2_alg».proof.Proof.Gen.Kernel.Frame
import proofs.«136812_j29686813950021_2_alg».proof.Proof.Gen.KernelIdeal
import proofs.«136812_j29686813950021_2_alg».proof.Proof.Gen.KernelIdeal.Skeleton
import proofs.«136812_j29686813950021_2_alg».proof.Proof.Gen.KernelIdeal.Launch
import proofs.«136812_j29686813950021_2_alg».proof.Proof.Gen.KernelIdeal.Points
import proofs.«136812_j29686813950021_2_alg».proof.Proof.Gen.KernelIdeal.Frame
import proofs.«136812_j29686813950021_2_alg».proof.Proof.Gen.ReferenceIdeal
import proofs.«136812_j29686813950021_2_alg».proof.Proof.Gen.Pre_finite_inputs
import proofs.«136812_j29686813950021_2_alg».proof.Proof.Gen.ReferenceIdeal.Read
import proofs.«136812_j29686813950021_2_alg».proof.Proof.KVal
import proofs.«136812_j29686813950021_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run, and their result arrays are one function of
    the arguments. -/
theorem algebraic : Cert.algebraic_KernelIdeal_ReferenceIdeal := by
  intro m ρ m' ρ' _ hagree
  refine ⟨fun c => Cert.Sage.KFun.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.Sage.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq]
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  exact (Cert.Sage.Bridge.out_eq _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
